-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S100000x64 .f32) (main_arg1 : FVec F S50000x64 .f32) (main_arg2 : IVec S4000000 32) (main_arg3 : IVec S4000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S100000x64 : Shape := ⟨2, ![100000, 64]⟩
abbrev S50000x64 : Shape := ⟨2, ![50000, 64]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S150000x1 : Shape := ⟨2, ![150000, 1]⟩
abbrev S150000x64 : Shape := ⟨2, ![150000, 64]⟩
abbrev S6000x64 : Shape := ⟨2, ![6000, 64]⟩
abbrev S6000x1 : Shape := ⟨2, ![6000, 1]⟩
abbrev S4000000x64 : Shape := ⟨2, ![4000000, 64]⟩

abbrev nBuf : Space → Nat
  | .hbm => 79
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .i32⟩
  | .hbm, ⟨3, _⟩ => ⟨S4000000, .i32⟩
  | .hbm, ⟨4, _⟩ => ⟨S_, .f32⟩
  | .hbm, ⟨5, _⟩ => ⟨S4000000, .f32⟩
  | .hbm, ⟨6, _⟩ => ⟨S_, .f32⟩
  | .hbm, ⟨7, _⟩ => ⟨S150000, .f32⟩
  | .hbm, ⟨8, _⟩ => ⟨S4000000x1, .i32⟩
  | .hbm, ⟨9, _⟩ => ⟨S150000, .f32⟩
  | .hbm, ⟨10, _⟩ => ⟨S_, .f32⟩
  | .hbm, ⟨11, _⟩ => ⟨S_, .f32⟩
  | .hbm, ⟨12, _⟩ => ⟨S150000, .f32⟩
  | .hbm, ⟨13, _⟩ => ⟨S150000, .f32⟩
  | .hbm, ⟨14, _⟩ => ⟨S_, .f32⟩
  | .hbm, ⟨15, _⟩ => ⟨S150000, .f32⟩
  | .hbm, ⟨16, _⟩ => ⟨S4000000x1, .i32⟩
  | .hbm, ⟨17, _⟩ => ⟨S150000, .f32⟩
  | .hbm, ⟨18, _⟩ => ⟨S_, .f32⟩
  | .hbm, ⟨19, _⟩ => ⟨S_, .f32⟩
  | .hbm, ⟨20, _⟩ => ⟨S150000, .f32⟩
  | .hbm, ⟨21, _⟩ => ⟨S150000, .f32⟩
  | .hbm, ⟨22, _⟩ => ⟨S_, .f32⟩
  | .hbm, ⟨23, _⟩ => ⟨S150000, .f32⟩
  | .hbm, ⟨24, _⟩ => ⟨S150000, .f32⟩
  | .hbm, ⟨25, _⟩ => ⟨S150000x1, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S150000x1, .f32⟩
  | .hbm, ⟨30, _⟩ => ⟨S150000x64, .f32⟩
  | .hbm, ⟨31, _⟩ => ⟨S150000x64, .f32⟩
  | .hbm, ⟨32, _⟩ => ⟨S_, .i32⟩
  | .hbm, ⟨33, _⟩ => ⟨S4000000, .i32⟩
  | .hbm, ⟨34, _⟩ => ⟨S4000000, .i1⟩
  | .hbm, ⟨35, _⟩ => ⟨S_, .i32⟩
  | .hbm, ⟨36, _⟩ => ⟨S4000000, .i32⟩
  | .hbm, ⟨37, _⟩ => ⟨S4000000, .i32⟩
  | .hbm, ⟨38, _⟩ => ⟨S4000000, .i32⟩
  | .hbm, ⟨39, _⟩ => ⟨S4000000x1, .i32⟩
  | .hbm, ⟨40, _⟩ => ⟨S4000000x64, .f32⟩
  | .hbm, ⟨41, _⟩ => ⟨S_, .f32⟩
  | .hbm, ⟨42, _⟩ => ⟨S150000x64, .f32⟩
  | .hbm, ⟨43, _⟩ => ⟨S4000000x1, .i32⟩
  | .hbm, ⟨44, _⟩ => ⟨S150000x64, .f32⟩
  | .hbm, ⟨45, _⟩ => ⟨S150000x64, .f32⟩
  | .hbm, ⟨46, _⟩ => ⟨S150000x64, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S4000000x64, .f32⟩
  | .hbm, ⟨56, _⟩ => ⟨S_, .f32⟩
  | .hbm, ⟨57, _⟩ => ⟨S150000x64, .f32⟩
  | .hbm, ⟨58, _⟩ => ⟨S4000000x1, .i32⟩
  | .hbm, ⟨59, _⟩ => ⟨S150000x64, .f32⟩
  | .hbm, ⟨60, _⟩ => ⟨S150000x64, .f32⟩
  | .hbm, ⟨61, _⟩ => ⟨S150000x64, .f32⟩
  | .hbm, ⟨62, _⟩ => ⟨S_, .i32⟩
  | .hbm, ⟨63, _⟩ => ⟨S4000000, .i32⟩
  | .hbm, ⟨64, _⟩ => ⟨S4000000, .i1⟩
  | .hbm, ⟨65, _⟩ => ⟨S_, .i32⟩
  | .hbm, ⟨66, _⟩ => ⟨S4000000, .i32⟩
  | .hbm, ⟨67, _⟩ => ⟨S4000000, .i32⟩
  | .hbm, ⟨68, _⟩ => ⟨S4000000, .i32⟩
  | .hbm, ⟨69, _⟩ => ⟨S4000000x1, .i32⟩
  | .hbm, ⟨70, _⟩ => ⟨S4000000x64, .f32⟩
  | .hbm, ⟨71, _⟩ => ⟨S_, .f32⟩
  | .hbm, ⟨72, _⟩ => ⟨S150000x64, .f32⟩
  | .hbm, ⟨73, _⟩ => ⟨S4000000x1, .i32⟩
  | .hbm, ⟨74, _⟩ => ⟨S150000x64, .f32⟩
  | .hbm, ⟨75, _⟩ => ⟨S150000x64, .f32⟩
  | .hbm, ⟨76, _⟩ => ⟨S150000x64, .f32⟩
  | .hbm, ⟨77, _⟩ => ⟨S100000x64, .f32⟩
  | .hbm, ⟨78, _⟩ => ⟨S50000x64, .f32⟩
  | .local _ .vmem, ⟨0, _⟩ => ⟨S6000x64, .f32⟩
  | .local _ .vmem, ⟨1, _⟩ => ⟨S6000x64, .f32⟩
  | .local _ .vmem, ⟨2, _⟩ => ⟨S6000x1, .f32⟩
  | .local _ .vmem, ⟨3, _⟩ => ⟨S6000x1, .f32⟩
  | .local _ .vmem, ⟨4, _⟩ => ⟨S6000x64, .f32⟩
  | .local _ .vmem, ⟨5, _⟩ => ⟨S6000x64, .f32⟩
  | .local _ .vmem, ⟨6, _⟩ => ⟨S6000x64, .f32⟩
  | .local _ .vmem, ⟨7, _⟩ => ⟨S6000x64, .f32⟩
  | .local _ .vmem, ⟨8, _⟩ => ⟨S6000x1, .f32⟩
  | .local _ .vmem, ⟨9, _⟩ => ⟨S6000x1, .f32⟩
  | .local _ .vmem, ⟨10, _⟩ => ⟨S6000x1, .f32⟩
  | .local _ .vmem, ⟨11, _⟩ => ⟨S6000x1, .f32⟩
  | .local _ .vmem, ⟨12, _⟩ => ⟨S6000x64, .f32⟩
  | .local _ .vmem, ⟨13, _⟩ => ⟨S6000x64, .f32⟩
  | .local _ .vmem, ⟨14, _⟩ => ⟨S6000x64, .f32⟩
  | .local _ .vmem, ⟨15, _⟩ => ⟨S6000x64, .f32⟩
  | .local _ .vmem, ⟨16, _⟩ => ⟨S6000x64, .f32⟩
  | .local _ .vmem, ⟨17, _⟩ => ⟨S6000x64, .f32⟩
  | .local _ .vmem, ⟨18, _⟩ => ⟨S6000x64, .f32⟩
  | .local _ .vmem, ⟨19, _⟩ => ⟨S6000x64, .f32⟩
  | .local _ .vmem, ⟨20, _⟩ => ⟨S6000x1, .f32⟩
  | .local _ .vmem, ⟨21, _⟩ => ⟨S6000x1, .f32⟩
  | .local _ .vmem, ⟨22, _⟩ => ⟨S6000x1, .f32⟩
  | .local _ .vmem, ⟨23, _⟩ => ⟨S6000x1, .f32⟩
  | .local _ .vmem, ⟨24, _⟩ => ⟨S6000x64, .f32⟩
  | .local _ .vmem, ⟨25, _⟩ => ⟨S6000x64, .f32⟩
  | .local _ .vmem, ⟨26, _⟩ => ⟨S6000x64, .f32⟩
  | .local _ .vmem, ⟨27, _⟩ => ⟨S6000x64, .f32⟩
  | .local _ .vmem, ⟨28, _⟩ => ⟨S6000x64, .f32⟩
  | .local _ .vmem, ⟨29, _⟩ => ⟨S6000x64, .f32⟩
  | .local _ .vmem, ⟨30, _⟩ => ⟨S6000x64, .f32⟩
  | .local _ .vmem, ⟨31, _⟩ => ⟨S6000x64, .f32⟩
  | .local _ .vmem, ⟨32, _⟩ => ⟨S6000x1, .f32⟩
  | .local _ .vmem, ⟨33, _⟩ => ⟨S6000x1, .f32⟩
  | .local _ .vmem, ⟨34, _⟩ => ⟨S6000x1, .f32⟩
  | .local _ .vmem, ⟨35, _⟩ => ⟨S6000x1, .f32⟩
  | .local _ .vmem, ⟨36, _⟩ => ⟨S6000x64, .f32⟩
  | .local _ .vmem, ⟨37, _⟩ => ⟨S6000x64, .f32⟩
  | .local _ .vmem, ⟨38, _⟩ => ⟨S6000x64, .f32⟩
  | .local _ .vmem, ⟨39, _⟩ => ⟨S6000x64, .f32⟩
  | .local _ .vmem, ⟨40, _⟩ => ⟨S6000x64, .f32⟩
  | .local _ .vmem, ⟨41, _⟩ => ⟨S6000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49_0 : Ref sig .tc := ⟨.hbm, 75, rfl⟩
abbrev main_v49_1 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S6000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S6000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S6000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S6000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S6000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S6000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S6000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  bcast_S150000_S150000x1_0 : S150000.BroadcastsInDim S150000x1 (![0] : Fin 1 → Fin S150000x1.rank)
  concatenates_S100000x64_S50000x64_S150000x64_d0 : Shape.Concatenates [S100000x64, S50000x64] S150000x64 0
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x64 : S6000x1.Broadcasts S6000x64
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  scatter_S150000_S4000000x1_S4000000_n_0_0_1_wf : ScatterDims.WF S150000 S4000000x1 S4000000 [] [0] [0] 1
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x1.size a ≤ S150000x1.size a
  hwx0_1 : ∀ i : grid0.Coords, EltTy.bits .f32 = 32 ∨ (Rect.block (s := S150000x1) S6000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S150000x1.size a
  hwx1_1 : ∀ i : grid1.Coords, EltTy.bits .f32 = 32 ∨ (Rect.block (s := S150000x1) S6000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x1.size a ≤ S150000x1.size a
  hwx1_2 : ∀ i : grid1.Coords, EltTy.bits .f32 = 32 ∨ (Rect.block (s := S150000x1) S6000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x64.size a ≤ S150000x64.size a
  hwx1_3 : ∀ i : grid1.Coords, EltTy.bits .f32 = 32 ∨ (Rect.block (s := S150000x64) S6000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x64.size a ≤ S150000x64.size a
  hwx1_4 : ∀ i : grid1.Coords, EltTy.bits .f32 = 32 ∨ (Rect.block (s := S150000x64) S6000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x64.size a ≤ S150000x64.size a
  hwx1_5 : ∀ i : grid1.Coords, EltTy.bits .f32 = 32 ∨ (Rect.block (s := S150000x64) S6000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x1.size a ≤ S150000x1.size a
  hwx2_1 : ∀ i : grid2.Coords, EltTy.bits .f32 = 32 ∨ (Rect.block (s := S150000x1) S6000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x1.size a ≤ S150000x1.size a
  hwx2_2 : ∀ i : grid2.Coords, EltTy.bits .f32 = 32 ∨ (Rect.block (s := S150000x1) S6000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x64.size a ≤ S150000x64.size a
  hwx2_3 : ∀ i : grid2.Coords, EltTy.bits .f32 = 32 ∨ (Rect.block (s := S150000x64) S6000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x64.size a ≤ S150000x64.size a
  hwx2_4 : ∀ i : grid2.Coords, EltTy.bits .f32 = 32 ∨ (Rect.block (s := S150000x64) S6000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6000x64.size a ≤ S150000x64.size a
  hwx2_5 : ∀ i : grid2.Coords, EltTy.bits .f32 = 32 ∨ (Rect.block (s := S150000x64) S6000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x64.size a ≤ S150000x64.size a
  hwx3_0 : ∀ i : grid3.Coords, EltTy.bits .f32 = 32 ∨ (Rect.block (s := S150000x64) S6000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x1.size a ≤ S150000x1.size a
  hwx3_1 : ∀ i : grid3.Coords, EltTy.bits .f32 = 32 ∨ (Rect.block (s := S150000x1) S6000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x1.size a ≤ S150000x1.size a
  hwx3_2 : ∀ i : grid3.Coords, EltTy.bits .f32 = 32 ∨ (Rect.block (s := S150000x1) S6000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S6000x64.size a ≤ S150000x64.size a
  hwx3_3 : ∀ i : grid3.Coords, EltTy.bits .f32 = 32 ∨ (Rect.block (s := S150000x64) S6000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6000x64.size a ≤ S150000x64.size a
  hwx3_4 : ∀ i : grid3.Coords, EltTy.bits .f32 = 32 ∨ (Rect.block (s := S150000x64) S6000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S6000x64.size a ≤ S150000x64.size a
  hwx3_5 : ∀ i : grid3.Coords, EltTy.bits .f32 = 32 ∨ (Rect.block (s := S150000x64) S6000x64.size (cc3_transform_5 i) (hinb3_5 i)).WholeWords (EltTy.packing .f32)

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v15) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S6000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S6000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S6000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S6000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_0) S6000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27_1) S6000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S6000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S6000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27_0) S6000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38_0) S6000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v38_1) S6000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S6000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S6000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S6000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38_0) S6000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v49_0) S6000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v49_1) S6000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S150000x1 : Shape := ⟨2, ![150000, 1]⟩
abbrev S150000x64 : Shape := ⟨2, ![150000, 64]⟩
abbrev S4000000x64 : Shape := ⟨2, ![4000000, 64]⟩

abbrev nBuf : Space → Nat
  | .hbm => 112
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .i32⟩
  | .hbm, ⟨3, _⟩ => ⟨S4000000, .i32⟩
  | .hbm, ⟨4, _⟩ => ⟨S_, .f32⟩
  | .hbm, ⟨5, _⟩ => ⟨S4000000, .f32⟩
  | .hbm, ⟨6, _⟩ => ⟨S_, .f32⟩
  | .hbm, ⟨7, _⟩ => ⟨S150000, .f32⟩
  | .hbm, ⟨8, _⟩ => ⟨S4000000x1, .i32⟩
  | .hbm, ⟨9, _⟩ => ⟨S150000, .f32⟩
  | .hbm, ⟨10, _⟩ => ⟨S_, .f32⟩
  | .hbm, ⟨11, _⟩ => ⟨S_, .f32⟩
  | .hbm, ⟨12, _⟩ => ⟨S150000, .f32⟩
  | .hbm, ⟨13, _⟩ => ⟨S150000, .f32⟩
  | .hbm, ⟨14, _⟩ => ⟨S_, .f32⟩
  | .hbm, ⟨15, _⟩ => ⟨S150000, .f32⟩
  | .hbm, ⟨16, _⟩ => ⟨S4000000x1, .i32⟩
  | .hbm, ⟨17, _⟩ => ⟨S150000, .f32⟩
  | .hbm, ⟨18, _⟩ => ⟨S_, .f32⟩
  | .hbm, ⟨19, _⟩ => ⟨S_, .f32⟩
  | .hbm, ⟨20, _⟩ => ⟨S150000, .f32⟩
  | .hbm, ⟨21, _⟩ => ⟨S150000, .f32⟩
  | .hbm, ⟨22, _⟩ => ⟨S_, .f32⟩
  | .hbm, ⟨23, _⟩ => ⟨S150000, .f32⟩
  | .hbm, ⟨24, _⟩ => ⟨S150000, .f32⟩
  | .hbm, ⟨25, _⟩ => ⟨S150000x1, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S150000x1, .f32⟩
  | .hbm, ⟨30, _⟩ => ⟨S150000x64, .f32⟩
  | .hbm, ⟨31, _⟩ => ⟨S150000x64, .f32⟩
  | .hbm, ⟨32, _⟩ => ⟨S150000x64, .f32⟩
  | .hbm, ⟨33, _⟩ => ⟨S_, .i32⟩
  | .hbm, ⟨34, _⟩ => ⟨S4000000, .i32⟩
  | .hbm, ⟨35, _⟩ => ⟨S4000000, .i1⟩
  | .hbm, ⟨36, _⟩ => ⟨S_, .i32⟩
  | .hbm, ⟨37, _⟩ => ⟨S4000000, .i32⟩
  | .hbm, ⟨38, _⟩ => ⟨S4000000, .i32⟩
  | .hbm, ⟨39, _⟩ => ⟨S4000000, .i32⟩
  | .hbm, ⟨40, _⟩ => ⟨S4000000x1, .i32⟩
  | .hbm, ⟨41, _⟩ => ⟨S4000000x64, .f32⟩
  | .hbm, ⟨42, _⟩ => ⟨S_, .f32⟩
  | .hbm, ⟨43, _⟩ => ⟨S150000x64, .f32⟩
  | .hbm, ⟨44, _⟩ => ⟨S4000000x1, .i32⟩
  | .hbm, ⟨45, _⟩ => ⟨S150000x64, .f32⟩
  | .hbm, ⟨46, _⟩ => ⟨S150000x64, .f32⟩
  | .hbm, ⟨47, _⟩ => ⟨S150000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S150000x64, .f32⟩
  | .hbm, ⟨59, _⟩ => ⟨S150000x64, .f32⟩
  | .hbm, ⟨60, _⟩ => ⟨S_, .i32⟩
  | .hbm, ⟨61, _⟩ => ⟨S4000000, .i32⟩
  | .hbm, ⟨62, _⟩ => ⟨S4000000, .i1⟩
  | .hbm, ⟨63, _⟩ => ⟨S_, .i32⟩
  | .hbm, ⟨64, _⟩ => ⟨S4000000, .i32⟩
  | .hbm, ⟨65, _⟩ => ⟨S4000000, .i32⟩
  | .hbm, ⟨66, _⟩ => ⟨S4000000, .i32⟩
  | .hbm, ⟨67, _⟩ => ⟨S4000000x1, .i32⟩
  | .hbm, ⟨68, _⟩ => ⟨S4000000x64, .f32⟩
  | .hbm, ⟨69, _⟩ => ⟨S_, .f32⟩
  | .hbm, ⟨70, _⟩ => ⟨S150000x64, .f32⟩
  | .hbm, ⟨71, _⟩ => ⟨S4000000x1, .i32⟩
  | .hbm, ⟨72, _⟩ => ⟨S150000x64, .f32⟩
  | .hbm, ⟨73, _⟩ => ⟨S150000x64, .f32⟩
  | .hbm, ⟨74, _⟩ => ⟨S150000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S150000x64, .f32⟩
  | .hbm, ⟨86, _⟩ => ⟨S150000x64, .f32⟩
  | .hbm, ⟨87, _⟩ => ⟨S_, .i32⟩
  | .hbm, ⟨88, _⟩ => ⟨S4000000, .i32⟩
  | .hbm, ⟨89, _⟩ => ⟨S4000000, .i1⟩
  | .hbm, ⟨90, _⟩ => ⟨S_, .i32⟩
  | .hbm, ⟨91, _⟩ => ⟨S4000000, .i32⟩
  | .hbm, ⟨92, _⟩ => ⟨S4000000, .i32⟩
  | .hbm, ⟨93, _⟩ => ⟨S4000000, .i32⟩
  | .hbm, ⟨94, _⟩ => ⟨S4000000x1, .i32⟩
  | .hbm, ⟨95, _⟩ => ⟨S4000000x64, .f32⟩
  | .hbm, ⟨96, _⟩ => ⟨S_, .f32⟩
  | .hbm, ⟨97, _⟩ => ⟨S150000x64, .f32⟩
  | .hbm, ⟨98, _⟩ => ⟨S4000000x1, .i32⟩
  | .hbm, ⟨99, _⟩ => ⟨S150000x64, .f32⟩
  | .hbm, ⟨100, _⟩ => ⟨S150000x64, .f32⟩
  | .hbm, ⟨101, _⟩ => ⟨S150000x64, .f32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S50000x64, .f32⟩
  | .hbm, ⟨108, _⟩ => ⟨S_, .f32⟩
  | .hbm, ⟨109, _⟩ => ⟨S50000x64, .f32⟩
  | .hbm, ⟨110, _⟩ => ⟨S50000x64, .f32⟩
  | .hbm, ⟨111, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_c_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_c_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  bcast_S150000_S150000x1_0 : S150000.BroadcastsInDim S150000x1 (![0] : Fin 1 → Fin S150000x1.rank)
  concatenates_S100000x64_S50000x64_S150000x64_d0 : Shape.Concatenates [S100000x64, S50000x64] S150000x64 0
  bcast_S150000x1_S150000x64_0_1 : S150000x1.BroadcastsInDim S150000x64 (![0, 1] : Fin 2 → Fin S150000x64.rank)
  bcast_S_S150000x64 : S_.BroadcastsInDim S150000x64 (![] : Fin 0 → Fin S150000x64.rank)
  slices_S150000x64_S100000x64_0_0 : S150000x64.Slices ![0, 0] S100000x64
  bcast_S_S100000x64 : S_.BroadcastsInDim S100000x64 (![] : Fin 0 → Fin S100000x64.rank)
  slices_S150000x64_S50000x64_100000_0 : S150000x64.Slices ![100000, 0] S50000x64
  bcast_S_S50000x64 : S_.BroadcastsInDim S50000x64 (![] : Fin 0 → Fin S50000x64.rank)
  scatter_S150000_S4000000x1_S4000000_n_0_0_1_wf : ScatterDims.WF S150000 S4000000x1 S4000000 [] [0] [0] 1
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.KRun.lean ====
/-
  The idealized kernel's run with its results named. The program is thirteen segments (host stretches and four
  kernel regions); the generated frame follows the buffer contents from boundary to boundary (`Gen.W0` … `Gen.W13`)
  and at the end keeps only that the arguments are unchanged. Here the same run keeps, besides, what the last boundary
  holds in the two result buffers: every weakly fair execution ends with `main_v50` and `main_v51` at `Gen.W13`'s
  contents. What those contents are, as functions of the arguments, is read off the fold in the modules that follow.
-/
import proofs.«104496_j40613210751549_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run : θ_run defs (onTc (τ := τ) (main (F := F))) ⟨m, fun _ => 0, ρ⟩ (fun r => ∀ c : Dev nD,
      r.2.mem ((c.tc : Thread nD τ).loc main_v50) = W13 m ρ c (Proc.devRef .tc main_v50)
      ∧ r.2.mem ((c.tc : Thread nD τ).loc main_v51) = W13 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v50 (by decide)),
       h c _ (mem_uc main_v51 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

end Cert.KernelIdeal.Results

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.Rows.lean ====
/-
  Row scaling of the node-feature table. The table has 150000 rows (one per node) of 64 features; a norm is a column
  with one entry per node. Three whole-table functions are all the four kernels compute: every row times its entry of a
  column (`rowScale`); a residual plus the row-scaled aggregate times a constant (`residualStep`); and the row-scaled
  aggregate scaled again by a second column (`nextFeatures`). Each is stated index by index, and shown equal to the
  form the host writes it in (a product with the column laid against the 64 features by `broadcast_in_dim`).
  On a block of 6000 rows the kernels' vector forms (a column block broadcast along the lanes) read the same way.
-/
import Idealize.ShloMosaic.PureOps.Vector
import Idealize.ShloMosaic.Lib.ValueIdx
import Idealize.ShloMosaic.Lib.Pipeline.Value
import Idealize.ShloMosaic.Lib.KernelVsHost
import proofs.«104496_j40613210751549_1_alg».proof.Proof.LibColumns
import proofs.«104496_j40613210751549_1_alg».proof.Proof.LibHostColumns

noncomputable section

namespace Cert.Rows

open Idealize.ShloMosaic Idealize.ShloMosaic.ValueIdx

variable {F : FTy → Type} [FloatOps F]

/-- The feature table's shape, a norm column's, and the two block shapes (6000 rows). -/
abbrev T : Shape := ⟨2, ![150000, 64]⟩
abbrev C : Shape := ⟨2, ![150000, 1]⟩
abbrev B : Shape := ⟨2, ![6000, 64]⟩
abbrev BC : Shape := ⟨2, ![6000, 1]⟩

/-- The column entry that belongs to a table index: same row, the column's only lane. -/
abbrev rowOf (i : T.Idx) : C.Idx := ix2 (⟨(i 0).val, (i 0).isLt⟩ : Fin 150000) (0 : Fin 1)

/-- Every row of `x` times its entry of the column `n`. -/
def rowScale (x : FVec F T .f32) (n : FVec F C .f32) : FVec F T .f32 :=
  fun i => FloatOps.mulf (x i) (n (rowOf i))

/-- The residual `r` plus the row-scaled aggregate `a` times the scalar `s`. -/
def residualStep (s : F .f32) (r a : FVec F T .f32) (n : FVec F C .f32) : FVec F T .f32 :=
  fun i => FloatOps.addf (r i) (FloatOps.mulf (FloatOps.mulf (a i) (n (rowOf i))) s)

/-- The row-scaled aggregate scaled again by a second column. -/
def nextFeatures (a : FVec F T .f32) (n n' : FVec F C .f32) : FVec F T .f32 :=
  fun i => FloatOps.mulf (FloatOps.mulf (a i) (n (rowOf i))) (n' (rowOf i))

/-! ## The host's forms -/

/-- The host's product with a column laid against the 64 features is the row scaling. -/
theorem mulf_column (x : FVec F T .f32) (n : FVec F C .f32) (h : C.BroadcastsInDim T (![0, 1] : Fin 2 → Fin 2)) :
    mulf x (broadcastInDim T (![0, 1] : Fin 2 → Fin 2) h n) = rowScale x n := by
  funext i
  obtain ⟨p, q, rfl⟩ : ∃ (p : Fin 150000) (q : Fin 64), i = ix2 p q := ⟨i 0, i 1, eq_ix2 i⟩
  show FloatOps.mulf (x (ix2 p q)) (broadcastInDim T (![0, 1] : Fin 2 → Fin 2) h n (ix2 p q)) = FloatOps.mulf (x (ix2 p q)) (n (ix2 p 0))
  rw [broadcastInDim_a1_ab_apply n h p q]

/-- The host's residual update: the residual plus (aggregate × column) × a constant laid over the table. -/
theorem addf_mulf_column (w : BitVec 32) (r a : FVec F T .f32) (n : FVec F C .f32)
    (h : C.BroadcastsInDim T (![0, 1] : Fin 2 → Fin 2)) (S0 : Shape) (d0 : Fin S0.rank → Fin T.rank) (h0 : S0.BroadcastsInDim T d0) :
    addf r (mulf (mulf a (broadcastInDim T (![0, 1] : Fin 2 → Fin 2) h n)) (broadcastInDim T d0 h0 (constant S0 .f32 w)))
      = residualStep (Scalar.ofBits (F := F) .f32 w) r a n := by
  rw [mulf_column, broadcastInDim_constant]
  rfl

/-- The host's next features: (aggregate × column) × a second column. -/
theorem mulf_mulf_column (a : FVec F T .f32) (n n' : FVec F C .f32)
    (h h' : C.BroadcastsInDim T (![0, 1] : Fin 2 → Fin 2)) :
    mulf (mulf a (broadcastInDim T (![0, 1] : Fin 2 → Fin 2) h n)) (broadcastInDim T (![0, 1] : Fin 2 → Fin 2) h' n')
      = nextFeatures a n n' := by
  rw [mulf_column a n h]
  funext i
  obtain ⟨p, q, rfl⟩ : ∃ (p : Fin 150000) (q : Fin 64), i = ix2 p q := ⟨i 0, i 1, eq_ix2 i⟩
  show FloatOps.mulf (rowScale a n (ix2 p q)) (broadcastInDim T (![0, 1] : Fin 2 → Fin 2) h' n' (ix2 p q)) = _
  rw [broadcastInDim_a1_ab_apply n' h' p q]
  rfl

/-! ## The kernels' forms, on a block of 6000 rows -/

/-- `![0, 0]` is the zero offset. -/
theorem zeroOffset : (![0, 0] : Fin 2 → Nat) = fun _ => 0 := funext fun a => by fin_cases a <;> rfl

/-- A block times a column block broadcast along the lanes, as the kernels write it (each operand first cast to
    its own shape): at `(p, q)` it is the block at `(p, q)` times the column block at `(p, 0)`. -/
theorem blockScale_apply (x : FVec F B .f32) (v : FVec F BC .f32) (hx : B.ShapeCasts B) (hv : BC.ShapeCasts BC)
    (hb : BC.Broadcasts B) (p : Fin 6000) (q : Fin 64) :
    mulf (shapeCast B x hx) (broadcastTo B (shapeCast BC v hv) hb) (ix2 p q)
      = FloatOps.mulf (x (ix2 p q)) (v (ix2 p (0 : Fin 1))) := by
  rw [shapeCast_self, shapeCast_self]
  show FloatOps.mulf (x (ix2 p q)) (broadcastTo B v hb (ix2 p q)) = _
  rw [broadcastTo_a1_ab_apply v hb p q]

end Cert.Rows

end
-- ==== Proof.Region0.lean ====
/-
  The prescale kernel's output array. The grid has 25 points; at point `t` the body reads block `t` (rows
  6000·t … 6000·t + 5999) of the feature table and of the norm column, and stores the block times the column block
  broadcast along the 64 lanes. Every window's index map is `(t, 0)`, so the block a point writes back is the
  restriction of ONE whole-table function, `Rows.rowScale`, and the 25 blocks tile the 150000 rows: the array the
  region leaves is `rowScale table column`, whatever the contents `V` the region was entered with.
-/
import proofs.«104496_j40613210751549_1_alg».proof.Proof.Gen.KernelIdeal.Frame
import proofs.«104496_j40613210751549_1_alg».proof.Proof.Rows
import Idealize.ShloMosaic.Lib.Pipeline.Value

set_option maxRecDepth 16384

noncomputable section

namespace Cert.KernelIdeal.Prescale

open Idealize.ShloMosaic Idealize.ShloMosaic.TcCoe Idealize.ShloMosaic.ValueIdx Idealize.SL.Sem
open Cert.KernelIdeal Cert.KernelIdeal.Gen Cert.Rows
open Idealize.ShloMosaic.Pipeline (Dat)

variable {F : FTy → Type} [FloatOps F]
variable (V : (c : Dev nD) → (b : Ref sig .tc) → Buf (Elt F) ((c : Thread nD τ).loc b))

/-- The column-block entry that belongs to a block index: same row of the block, the only lane. -/
abbrev rowIn (j : S6000x64.Idx) : S6000x1.Idx := ix2 (⟨(j 0).val, (j 0).isLt⟩ : Fin 6000) (0 : Fin 1)

/-- The body's one store, entry by entry: the table block times the column block's entry of the same row. -/
theorem payload_apply (x0 : Vec F S6000x64 .f32) (x1 : Vec F S6000x1 .f32) (j : S6000x64.Idx) :
    k0_pay1 x0 x1 j = FloatOps.mulf (x0 j) (x1 (rowIn j)) := by
  obtain ⟨p, q, rfl⟩ : ∃ (p : Fin 6000) (q : Fin 64), j = ix2 p q := ⟨j 0, j 1, eq_ix2 j⟩
  exact blockScale_apply x0 x1 _ _ _ p q

/-- The printed index maps over the grid: every window's block at point `t` is block `(t, 0)`. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem index_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the row-scaled table. -/
theorem flushed_eq (c : Dev nD) (t : Fin cfg0.N) :
    (dat0 V c).flushed 2 t = ((cfg0.win 2).blk t).view.read (Elt F) (rowScale (V c main_v15) (V c main_v11)) := by
  show (cfg0.win 2).cut (grid0.coords t) ((dat0 V c).after 2 t) = _
  rw [after0_2]
  unfold out0_2
  rw [View.canon_unit_zero zeroOffset]
  simp only [View.ld_unit_zero (S := S6000x64) zeroOffset, View.ld_unit_zero (S := S6000x1) zeroOffset]
  obtain ⟨e0, e1, e2, e3, e4, e5⟩ := index_facts t
  funext j
  show k0_pay1 (iblk0 V c 0 t) (iblk0 V c 1 t) j = rowScale (V c main_v15) (V c main_v11) (((cfg0.win 2).blk t).view.emb j)
  refine (payload_apply (iblk0 V c 0 t) (iblk0 V c 1 t) j).trans ?_
  show FloatOps.mulf (V c main_v15 (((cfg0.win 0).blk t).view.emb j)) (V c main_v11 (((cfg0.win 1).blk t).view.emb (rowIn j)))
    = FloatOps.mulf (V c main_v15 (((cfg0.win 2).blk t).view.emb j)) (V c main_v11 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 6000 + 1 * (j 0).val = win0_2.index t (0 : Fin 2) * 6000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (rowIn j) = rowOf (((cfg0.win 2).blk t).view.emb j) := by
    funext a; apply Fin.ext
    match a with
    | ⟨0, _⟩ => show win0_1.index t (0 : Fin 2) * 6000 + 1 * (j 0).val = win0_2.index t (0 : Fin 2) * 6000 + 1 * (j 0).val; omega
    | ⟨1, _⟩ => show win0_1.index t (1 : Fin 2) * 1 + 1 * 0 = 0; omega
  rw [h0, h1]

/-- An index of the table is in point `t`'s block iff each coordinate is in the block's range on its axis. -/
theorem mem_block (t : Fin cfg0.N) (i : S150000x64.Idx) :
    i ∈ ((cfg0.win 2).blk t).view.set ↔ ∀ a : Fin 2, win0_2.index t a * S6000x64.size a ≤ (i a).val ∧ (i a).val < win0_2.index t a * S6000x64.size a + S6000x64.size a := by
  show i ∈ ((View.whole main_v16).slice (win0_2.rect t)).set ↔ _
  rw [View.set_slice_whole, Rect.mem_set_unit]
  exact Iff.rfl

/-- The 25 blocks tile the table: row `r` is in the block of point `r / 6000`. -/
theorem covered (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  obtain ⟨t, ht⟩ := index_onto ⟨(i 0).val / 6000, by omega⟩
  have q0 : win0_2.index t (0 : Fin 2) = (i 0).val / 6000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 6000 ≤ (i 0).val ∧ (i 0).val < win0_2.index t (0 : Fin 2) * 6000 + 6000; omega
  | ⟨1, _⟩ => show win0_2.index t (1 : Fin 2) * 64 ≤ (i 1).val ∧ (i 1).val < win0_2.index t (1 : Fin 2) * 64 + 64; omega

/-- The output array after the region: the table with every row scaled by its entry of the column. -/
theorem final (c : Dev nD) : (dat0 V c).arrAt 2 cfg0.N = rowScale (V c main_v15) (V c main_v11) :=
  (dat0 V c).arrAt_eq_of_cover 2 _ (fun t _ => flushed_eq V c t) covered

/-- The two input arrays are left as the region found them. -/
theorem kept_table (c : Dev nD) : (dat0 V c).arrAt 0 cfg0.N = V c main_v15 :=
  ((dat0 V c).arrAt_in 0 rfl cfg0.N).trans (A_eq0 V c 0)
theorem kept_column (c : Dev nD) : (dat0 V c).arrAt 1 cfg0.N = V c main_v11 :=
  ((dat0 V c).arrAt_in 1 rfl cfg0.N).trans (A_eq0 V c 1)

end Cert.KernelIdeal.Prescale

end
-- ==== Proof.Region1.lean ====
/-
  The first postscale kernel's two output arrays. The grid has 25 points; at point `t` the body reads block `t` (rows
  6000·t … 6000·t + 5999) of the aggregate, of the two norm columns and of the residual; it forms the aggregate block
  times the in-norm column block (broadcast along the 64 lanes), stores the residual block plus that product times a
  constant, and stores that product times the out-norm column block. Every window's index map is `(t, 0)`, so each
  block written back is the restriction of one whole-table function (`Rows.residualStep`, `Rows.nextFeatures`) and the
  25 blocks tile the 150000 rows — whatever the contents `V` the region was entered with.
-/
import proofs.«104496_j40613210751549_1_alg».proof.Proof.Gen.KernelIdeal.Frame
import proofs.«104496_j40613210751549_1_alg».proof.Proof.Rows
import Idealize.ShloMosaic.Lib.Pipeline.Value

set_option maxRecDepth 16384

noncomputable section

namespace Cert.KernelIdeal.Postscale1

open Idealize.ShloMosaic Idealize.ShloMosaic.TcCoe Idealize.ShloMosaic.ValueIdx Idealize.SL.Sem
open Cert.KernelIdeal Cert.KernelIdeal.Gen Cert.Rows
open Idealize.ShloMosaic.Pipeline (Dat)

variable {F : FTy → Type} [FloatOps F]
variable (V : (c : Dev nD) → (b : Ref sig .tc) → Buf (Elt F) ((c : Thread nD τ).loc b))

/-- The column-block entry that belongs to a block index: same row of the block, the only lane. -/
abbrev rowIn (j : S6000x64.Idx) : S6000x1.Idx := ix2 (⟨(j 0).val, (j 0).isLt⟩ : Fin 6000) (0 : Fin 1)

/-- The constant the residual's increment is scaled by. -/
abbrev scale : F .f32 := Scalar.ofBits .f32 0x3F000000#32

/-- The aggregate block times the in-norm column block, entry by entry. -/
theorem scaled_apply (x0 : Vec F S6000x64 .f32) (x1 : Vec F S6000x1 .f32) (p : Fin 6000) (q : Fin 64) :
    k1_pay1 x0 x1 (ix2 p q) = FloatOps.mulf (x0 (ix2 p q)) (x1 (ix2 p (0 : Fin 1))) :=
  blockScale_apply x0 x1 _ _ _ p q

/-- The store into the residual's window, entry by entry. -/
theorem residual_payload_apply (x0 : Vec F S6000x64 .f32) (x1 : Vec F S6000x1 .f32) (x3 : Vec F S6000x64 .f32) (j : S6000x64.Idx) :
    k1_pay2 x0 x1 x3 j = FloatOps.addf (x3 j) (FloatOps.mulf (FloatOps.mulf (x0 j) (x1 (rowIn j))) (scale (F := F))) := by
  obtain ⟨p, q, rfl⟩ : ∃ (p : Fin 6000) (q : Fin 64), j = ix2 p q := ⟨j 0, j 1, eq_ix2 j⟩
  show FloatOps.addf (shapeCast S6000x64 x3 shapeCasts_S6000x64_S6000x64 (ix2 p q)) (FloatOps.mulf (k1_pay1 x0 x1 (ix2 p q)) (scale (F := F))) = _
  rw [shapeCast_self, scaled_apply]

/-- The store into the next features' window, entry by entry. -/
theorem features_payload_apply (x0 : Vec F S6000x64 .f32) (x1 x2 : Vec F S6000x1 .f32) (j : S6000x64.Idx) :
    k1_pay3 x0 x1 x2 j = FloatOps.mulf (FloatOps.mulf (x0 j) (x1 (rowIn j))) (x2 (rowIn j)) := by
  obtain ⟨p, q, rfl⟩ : ∃ (p : Fin 6000) (q : Fin 64), j = ix2 p q := ⟨j 0, j 1, eq_ix2 j⟩
  show FloatOps.mulf (k1_pay1 x0 x1 (ix2 p q)) (broadcastTo S6000x64 (shapeCast S6000x1 x2 shapeCasts_S6000x1_S6000x1) broadcasts_S6000x1_S6000x64 (ix2 p q)) = _
  rw [scaled_apply, shapeCast_self, broadcastTo_a1_ab_apply x2 broadcasts_S6000x1_S6000x64 p q]

/-- The printed index maps over the grid: every window's block at point `t` is block `(t, 0)`. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Every row block is some point's, for both outputs. -/
theorem index_onto4 : ∀ q0 : Fin 25, ∃ t : Fin cfg1.N, win1_4.index t = ![q0.val, 0] :=
  (by decide +kernel : ∀ q0 : Fin 25, ∃ t : Fin grid1.N, win1_4.index t = ![q0.val, 0])
theorem index_onto5 : ∀ q0 : Fin 25, ∃ t : Fin cfg1.N, win1_5.index t = ![q0.val, 0] :=
  (by decide +kernel : ∀ q0 : Fin 25, ∃ t : Fin grid1.N, win1_5.index t = ![q0.val, 0])

/-- What point `t` writes back to the residual is block `t` of `residualStep`. -/
theorem flushed4_eq (c : Dev nD) (t : Fin cfg1.N) :
    (dat1 V c).flushed 4 t = ((cfg1.win 4).blk t).view.read (Elt F)
      (residualStep (scale (F := F)) (V c main_v15) (V c main_v26) (V c main_v14)) := by
  show (cfg1.win 4).cut (grid1.coords t) ((dat1 V c).after 4 t) = _
  rw [after1_4]
  unfold out1_4
  rw [View.canon_unit_zero zeroOffset]
  simp only [View.ld_unit_zero (S := S6000x64) zeroOffset, View.ld_unit_zero (S := S6000x1) zeroOffset]
  obtain ⟨e0, e1, e2, e3, e4, e5, e6, e7, e8, e9, e10, e11⟩ := index_facts t
  funext j
  show k1_pay2 (iblk1 V c 0 t) (iblk1 V c 1 t) (iblk1 V c 3 t) j
    = residualStep (scale (F := F)) (V c main_v15) (V c main_v26) (V c main_v14) (((cfg1.win 4).blk t).view.emb j)
  refine (residual_payload_apply (iblk1 V c 0 t) (iblk1 V c 1 t) (iblk1 V c 3 t) j).trans ?_
  show FloatOps.addf (V c main_v15 (((cfg1.win 3).blk t).view.emb j))
      (FloatOps.mulf (FloatOps.mulf (V c main_v26 (((cfg1.win 0).blk t).view.emb j)) (V c main_v14 (((cfg1.win 1).blk t).view.emb (rowIn j)))) (scale (F := F)))
    = FloatOps.addf (V c main_v15 (((cfg1.win 4).blk t).view.emb j))
      (FloatOps.mulf (FloatOps.mulf (V c main_v26 (((cfg1.win 4).blk t).view.emb j)) (V c main_v14 (rowOf (((cfg1.win 4).blk t).view.emb j)))) (scale (F := F)))
  have h0 : ((cfg1.win 0).blk t).view.emb j = ((cfg1.win 4).blk t).view.emb j := by
    funext a; apply Fin.ext
    match a with
    | ⟨0, _⟩ => show win1_0.index t (0 : Fin 2) * 6000 + 1 * (j 0).val = win1_4.index t (0 : Fin 2) * 6000 + 1 * (j 0).val; omega
    | ⟨1, _⟩ => show win1_0.index t (1 : Fin 2) * 64 + 1 * (j 1).val = win1_4.index t (1 : Fin 2) * 64 + 1 * (j 1).val; omega
  have h3 : ((cfg1.win 3).blk t).view.emb j = ((cfg1.win 4).blk t).view.emb j := by
    funext a; apply Fin.ext
    match a with
    | ⟨0, _⟩ => show win1_3.index t (0 : Fin 2) * 6000 + 1 * (j 0).val = win1_4.index t (0 : Fin 2) * 6000 + 1 * (j 0).val; omega
    | ⟨1, _⟩ => show win1_3.index t (1 : Fin 2) * 64 + 1 * (j 1).val = win1_4.index t (1 : Fin 2) * 64 + 1 * (j 1).val; omega
  have h1 : ((cfg1.win 1).blk t).view.emb (rowIn j) = rowOf (((cfg1.win 4).blk t).view.emb j) := by
    funext a; apply Fin.ext
    match a with
    | ⟨0, _⟩ => show win1_1.index t (0 : Fin 2) * 6000 + 1 * (j 0).val = win1_4.index t (0 : Fin 2) * 6000 + 1 * (j 0).val; omega
    | ⟨1, _⟩ => show win1_1.index t (1 : Fin 2) * 1 + 1 * 0 = 0; omega
  rw [h0, h3, h1]

/-- What point `t` writes back to the next features is block `t` of `nextFeatures`. -/
theorem flushed5_eq (c : Dev nD) (t : Fin cfg1.N) :
    (dat1 V c).flushed 5 t = ((cfg1.win 5).blk t).view.read (Elt F)
      (nextFeatures (V c main_v26) (V c main_v14) (V c main_v11)) := by
  show (cfg1.win 5).cut (grid1.coords t) ((dat1 V c).after 5 t) = _
  rw [after1_5]
  unfold out1_5
  rw [View.canon_unit_zero zeroOffset]
  simp only [View.ld_unit_zero (S := S6000x64) zeroOffset, View.ld_unit_zero (S := S6000x1) zeroOffset]
  obtain ⟨e0, e1, e2, e3, e4, e5, e6, e7, e8, e9, e10, e11⟩ := index_facts t
  funext j
  show k1_pay3 (iblk1 V c 0 t) (iblk1 V c 1 t) (iblk1 V c 2 t) j
    = nextFeatures (V c main_v26) (V c main_v14) (V c main_v11) (((cfg1.win 5).blk t).view.emb j)
  refine (features_payload_apply (iblk1 V c 0 t) (iblk1 V c 1 t) (iblk1 V c 2 t) j).trans ?_
  show FloatOps.mulf (FloatOps.mulf (V c main_v26 (((cfg1.win 0).blk t).view.emb j)) (V c main_v14 (((cfg1.win 1).blk t).view.emb (rowIn j))))
      (V c main_v11 (((cfg1.win 2).blk t).view.emb (rowIn j)))
    = FloatOps.mulf (FloatOps.mulf (V c main_v26 (((cfg1.win 5).blk t).view.emb j)) (V c main_v14 (rowOf (((cfg1.win 5).blk t).view.emb j))))
      (V c main_v11 (rowOf (((cfg1.win 5).blk t).view.emb j)))
  have h0 : ((cfg1.win 0).blk t).view.emb j = ((cfg1.win 5).blk t).view.emb j := by
    funext a; apply Fin.ext
    match a with
    | ⟨0, _⟩ => show win1_0.index t (0 : Fin 2) * 6000 + 1 * (j 0).val = win1_5.index t (0 : Fin 2) * 6000 + 1 * (j 0).val; omega
    | ⟨1, _⟩ => show win1_0.index t (1 : Fin 2) * 64 + 1 * (j 1).val = win1_5.index t (1 : Fin 2) * 64 + 1 * (j 1).val; omega
  have h1 : ((cfg1.win 1).blk t).view.emb (rowIn j) = rowOf (((cfg1.win 5).blk t).view.emb j) := by
    funext a; apply Fin.ext
    match a with
    | ⟨0, _⟩ => show win1_1.index t (0 : Fin 2) * 6000 + 1 * (j 0).val = win1_5.index t (0 : Fin 2) * 6000 + 1 * (j 0).val; omega
    | ⟨1, _⟩ => show win1_1.index t (1 : Fin 2) * 1 + 1 * 0 = 0; omega
  have h2 : ((cfg1.win 2).blk t).view.emb (rowIn j) = rowOf (((cfg1.win 5).blk t).view.emb j) := by
    funext a; apply Fin.ext
    match a with
    | ⟨0, _⟩ => show win1_2.index t (0 : Fin 2) * 6000 + 1 * (j 0).val = win1_5.index t (0 : Fin 2) * 6000 + 1 * (j 0).val; omega
    | ⟨1, _⟩ => show win1_2.index t (1 : Fin 2) * 1 + 1 * 0 = 0; omega
  rw [h0, h1, h2]

/-- An index of the table is in point `t`'s block iff each coordinate is in the block's range on its axis. -/
theorem mem_block4 (t : Fin cfg1.N) (i : S150000x64.Idx) :
    i ∈ ((cfg1.win 4).blk t).view.set ↔ ∀ a : Fin 2, win1_4.index t a * S6000x64.size a ≤ (i a).val ∧ (i a).val < win1_4.index t a * S6000x64.size a + S6000x64.size a := by
  show i ∈ ((View.whole main_v27_0).slice (win1_4.rect t)).set ↔ _
  rw [View.set_slice_whole, Rect.mem_set_unit]
  exact Iff.rfl
theorem mem_block5 (t : Fin cfg1.N) (i : S150000x64.Idx) :
    i ∈ ((cfg1.win 5).blk t).view.set ↔ ∀ a : Fin 2, win1_5.index t a * S6000x64.size a ≤ (i a).val ∧ (i a).val < win1_5.index t a * S6000x64.size a + S6000x64.size a := by
  show i ∈ ((View.whole main_v27_1).slice (win1_5.rect t)).set ↔ _
  rw [View.set_slice_whole, Rect.mem_set_unit]
  exact Iff.rfl

/-- The 25 blocks tile the table: row `r` is in the block of point `r / 6000`. -/
theorem covered4 (i : S150000x64.Idx) :
    ∃ t : Fin cfg1.N, (cfg1.win 4).flush t = true ∧ i ∈ ((cfg1.win 4).blk t).view.set := by
  have hi0 : (i 0).val < 150000 := (i 0).isLt
  have hi1 : (i 1).val < 64 := (i 1).isLt
  obtain ⟨t, ht⟩ := index_onto4 ⟨(i 0).val / 6000, by omega⟩
  have q0 : win1_4.index t (0 : Fin 2) = (i 0).val / 6000 := congrFun ht 0
  have q1 : win1_4.index t (1 : Fin 2) = 0 := congrFun ht 1
  refine ⟨t, flush1_4 t, ?_⟩
  rw [mem_block4]
  intro a
  match a with
  | ⟨0, _⟩ => show win1_4.index t (0 : Fin 2) * 6000 ≤ (i 0).val ∧ (i 0).val < win1_4.index t (0 : Fin 2) * 6000 + 6000; omega
  | ⟨1, _⟩ => show win1_4.index t (1 : Fin 2) * 64 ≤ (i 1).val ∧ (i 1).val < win1_4.index t (1 : Fin 2) * 64 + 64; omega
theorem covered5 (i : S150000x64.Idx) :
    ∃ t : Fin cfg1.N, (cfg1.win 5).flush t = true ∧ i ∈ ((cfg1.win 5).blk t).view.set := by
  have hi0 : (i 0).val < 150000 := (i 0).isLt
  have hi1 : (i 1).val < 64 := (i 1).isLt
  obtain ⟨t, ht⟩ := index_onto5 ⟨(i 0).val / 6000, by omega⟩
  have q0 : win1_5.index t (0 : Fin 2) = (i 0).val / 6000 := congrFun ht 0
  have q1 : win1_5.index t (1 : Fin 2) = 0 := congrFun ht 1
  refine ⟨t, flush1_5 t, ?_⟩
  rw [mem_block5]
  intro a
  match a with
  | ⟨0, _⟩ => show win1_5.index t (0 : Fin 2) * 6000 ≤ (i 0).val ∧ (i 0).val < win1_5.index t (0 : Fin 2) * 6000 + 6000; omega
  | ⟨1, _⟩ => show win1_5.index t (1 : Fin 2) * 64 ≤ (i 1).val ∧ (i 1).val < win1_5.index t (1 : Fin 2) * 64 + 64; omega

/-- The residual after the region: the residual it found plus the row-scaled aggregate times the constant. -/
theorem final_residual (c : Dev nD) : (dat1 V c).arrAt 4 cfg1.N
    = residualStep (scale (F := F)) (V c main_v15) (V c main_v26) (V c main_v14) :=
  (dat1 V c).arrAt_eq_of_cover 4 _ (fun t _ => flushed4_eq V c t) covered4

/-- The next features after the region: the aggregate scaled by the in-norm and then the out-norm column. -/
theorem final_features (c : Dev nD) : (dat1 V c).arrAt 5 cfg1.N
    = nextFeatures (V c main_v26) (V c main_v14) (V c main_v11) :=
  (dat1 V c).arrAt_eq_of_cover 5 _ (fun t _ => flushed5_eq V c t) covered5

/-- The input arrays are left as the region found them. -/
theorem kept_in_norm (c : Dev nD) : (dat1 V c).arrAt 1 cfg1.N = V c main_v14 :=
  ((dat1 V c).arrAt_in 1 rfl cfg1.N).trans (A_eq1 V c 1)
theorem kept_out_norm (c : Dev nD) : (dat1 V c).arrAt 2 cfg1.N = V c main_v11 :=
  ((dat1 V c).arrAt_in 2 rfl cfg1.N).trans (A_eq1 V c 2)
theorem kept_residual_in (c : Dev nD) : (dat1 V c).arrAt 3 cfg1.N = V c main_v15 :=
  ((dat1 V c).arrAt_in 3 rfl cfg1.N).trans (A_eq1 V c 3)

end Cert.KernelIdeal.Postscale1

end
-- ==== Proof.Region2.lean ====
/-
  The second postscale kernel's two output arrays. The grid has 25 points; at point `t` the body reads block `t` (rows
  6000·t … 6000·t + 5999) of the aggregate, of the two norm columns and of the residual; it forms the aggregate block
  times the in-norm column block (broadcast along the 64 lanes), stores the residual block plus that product times a
  constant, and stores that product times the out-norm column block. Every window's index map is `(t, 0)`, so each
  block written back is the restriction of one whole-table function (`Rows.residualStep`, `Rows.nextFeatures`) and the
  25 blocks tile the 150000 rows — whatever the contents `V` the region was entered with.
-/
import proofs.«104496_j40613210751549_1_alg».proof.Proof.Gen.KernelIdeal.Frame
import proofs.«104496_j40613210751549_1_alg».proof.Proof.Rows
import Idealize.ShloMosaic.Lib.Pipeline.Value

set_option maxRecDepth 16384

noncomputable section

namespace Cert.KernelIdeal.Postscale2

open Idealize.ShloMosaic Idealize.ShloMosaic.TcCoe Idealize.ShloMosaic.ValueIdx Idealize.SL.Sem
open Cert.KernelIdeal Cert.KernelIdeal.Gen Cert.Rows
open Idealize.ShloMosaic.Pipeline (Dat)

variable {F : FTy → Type} [FloatOps F]
variable (V : (c : Dev nD) → (b : Ref sig .tc) → Buf (Elt F) ((c : Thread nD τ).loc b))

/-- The column-block entry that belongs to a block index: same row of the block, the only lane. -/
abbrev rowIn (j : S6000x64.Idx) : S6000x1.Idx := ix2 (⟨(j 0).val, (j 0).isLt⟩ : Fin 6000) (0 : Fin 1)

/-- The constant the residual's increment is scaled by. -/
abbrev scale : F .f32 := Scalar.ofBits .f32 0x3EAAAAAB#32

/-- The aggregate block times the in-norm column block, entry by entry. -/
theorem scaled_apply (x0 : Vec F S6000x64 .f32) (x1 : Vec F S6000x1 .f32) (p : Fin 6000) (q : Fin 64) :
    k2_pay1 x0 x1 (ix2 p q) = FloatOps.mulf (x0 (ix2 p q)) (x1 (ix2 p (0 : Fin 1))) :=
  blockScale_apply x0 x1 _ _ _ p q

/-- The store into the residual's window, entry by entry. -/
theorem residual_payload_apply (x0 : Vec F S6000x64 .f32) (x1 : Vec F S6000x1 .f32) (x3 : Vec F S6000x64 .f32) (j : S6000x64.Idx) :
    k2_pay2 x0 x1 x3 j = FloatOps.addf (x3 j) (FloatOps.mulf (FloatOps.mulf (x0 j) (x1 (rowIn j))) (scale (F := F))) := by
  obtain ⟨p, q, rfl⟩ : ∃ (p : Fin 6000) (q : Fin 64), j = ix2 p q := ⟨j 0, j 1, eq_ix2 j⟩
  show FloatOps.addf (shapeCast S6000x64 x3 shapeCasts_S6000x64_S6000x64 (ix2 p q)) (FloatOps.mulf (k2_pay1 x0 x1 (ix2 p q)) (scale (F := F))) = _
  rw [shapeCast_self, scaled_apply]

/-- The store into the next features' window, entry by entry. -/
theorem features_payload_apply (x0 : Vec F S6000x64 .f32) (x1 x2 : Vec F S6000x1 .f32) (j : S6000x64.Idx) :
    k2_pay3 x0 x1 x2 j = FloatOps.mulf (FloatOps.mulf (x0 j) (x1 (rowIn j))) (x2 (rowIn j)) := by
  obtain ⟨p, q, rfl⟩ : ∃ (p : Fin 6000) (q : Fin 64), j = ix2 p q := ⟨j 0, j 1, eq_ix2 j⟩
  show FloatOps.mulf (k2_pay1 x0 x1 (ix2 p q)) (broadcastTo S6000x64 (shapeCast S6000x1 x2 shapeCasts_S6000x1_S6000x1) broadcasts_S6000x1_S6000x64 (ix2 p q)) = _
  rw [scaled_apply, shapeCast_self, broadcastTo_a1_ab_apply x2 broadcasts_S6000x1_S6000x64 p q]

/-- The printed index maps over the grid: every window's block at point `t` is block `(t, 0)`. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Every row block is some point's, for both outputs. -/
theorem index_onto4 : ∀ q0 : Fin 25, ∃ t : Fin cfg2.N, win2_4.index t = ![q0.val, 0] :=
  (by decide +kernel : ∀ q0 : Fin 25, ∃ t : Fin grid2.N, win2_4.index t = ![q0.val, 0])
theorem index_onto5 : ∀ q0 : Fin 25, ∃ t : Fin cfg2.N, win2_5.index t = ![q0.val, 0] :=
  (by decide +kernel : ∀ q0 : Fin 25, ∃ t : Fin grid2.N, win2_5.index t = ![q0.val, 0])

/-- What point `t` writes back to the residual is block `t` of `residualStep`. -/
theorem flushed4_eq (c : Dev nD) (t : Fin cfg2.N) :
    (dat2 V c).flushed 4 t = ((cfg2.win 4).blk t).view.read (Elt F)
      (residualStep (scale (F := F)) (V c main_v27_0) (V c main_v37) (V c main_v14)) := by
  show (cfg2.win 4).cut (grid2.coords t) ((dat2 V c).after 4 t) = _
  rw [after2_4]
  unfold out2_4
  rw [View.canon_unit_zero zeroOffset]
  simp only [View.ld_unit_zero (S := S6000x64) zeroOffset, View.ld_unit_zero (S := S6000x1) zeroOffset]
  obtain ⟨e0, e1, e2, e3, e4, e5, e6, e7, e8, e9, e10, e11⟩ := index_facts t
  funext j
  show k2_pay2 (iblk2 V c 0 t) (iblk2 V c 1 t) (iblk2 V c 3 t) j
    = residualStep (scale (F := F)) (V c main_v27_0) (V c main_v37) (V c main_v14) (((cfg2.win 4).blk t).view.emb j)
  refine (residual_payload_apply (iblk2 V c 0 t) (iblk2 V c 1 t) (iblk2 V c 3 t) j).trans ?_
  show FloatOps.addf (V c main_v27_0 (((cfg2.win 3).blk t).view.emb j))
      (FloatOps.mulf (FloatOps.mulf (V c main_v37 (((cfg2.win 0).blk t).view.emb j)) (V c main_v14 (((cfg2.win 1).blk t).view.emb (rowIn j)))) (scale (F := F)))
    = FloatOps.addf (V c main_v27_0 (((cfg2.win 4).blk t).view.emb j))
      (FloatOps.mulf (FloatOps.mulf (V c main_v37 (((cfg2.win 4).blk t).view.emb j)) (V c main_v14 (rowOf (((cfg2.win 4).blk t).view.emb j)))) (scale (F := F)))
  have h0 : ((cfg2.win 0).blk t).view.emb j = ((cfg2.win 4).blk t).view.emb j := by
    funext a; apply Fin.ext
    match a with
    | ⟨0, _⟩ => show win2_0.index t (0 : Fin 2) * 6000 + 1 * (j 0).val = win2_4.index t (0 : Fin 2) * 6000 + 1 * (j 0).val; omega
    | ⟨1, _⟩ => show win2_0.index t (1 : Fin 2) * 64 + 1 * (j 1).val = win2_4.index t (1 : Fin 2) * 64 + 1 * (j 1).val; omega
  have h3 : ((cfg2.win 3).blk t).view.emb j = ((cfg2.win 4).blk t).view.emb j := by
    funext a; apply Fin.ext
    match a with
    | ⟨0, _⟩ => show win2_3.index t (0 : Fin 2) * 6000 + 1 * (j 0).val = win2_4.index t (0 : Fin 2) * 6000 + 1 * (j 0).val; omega
    | ⟨1, _⟩ => show win2_3.index t (1 : Fin 2) * 64 + 1 * (j 1).val = win2_4.index t (1 : Fin 2) * 64 + 1 * (j 1).val; omega
  have h1 : ((cfg2.win 1).blk t).view.emb (rowIn j) = rowOf (((cfg2.win 4).blk t).view.emb j) := by
    funext a; apply Fin.ext
    match a with
    | ⟨0, _⟩ => show win2_1.index t (0 : Fin 2) * 6000 + 1 * (j 0).val = win2_4.index t (0 : Fin 2) * 6000 + 1 * (j 0).val; omega
    | ⟨1, _⟩ => show win2_1.index t (1 : Fin 2) * 1 + 1 * 0 = 0; omega
  rw [h0, h3, h1]

/-- What point `t` writes back to the next features is block `t` of `nextFeatures`. -/
theorem flushed5_eq (c : Dev nD) (t : Fin cfg2.N) :
    (dat2 V c).flushed 5 t = ((cfg2.win 5).blk t).view.read (Elt F)
      (nextFeatures (V c main_v37) (V c main_v14) (V c main_v11)) := by
  show (cfg2.win 5).cut (grid2.coords t) ((dat2 V c).after 5 t) = _
  rw [after2_5]
  unfold out2_5
  rw [View.canon_unit_zero zeroOffset]
  simp only [View.ld_unit_zero (S := S6000x64) zeroOffset, View.ld_unit_zero (S := S6000x1) zeroOffset]
  obtain ⟨e0, e1, e2, e3, e4, e5, e6, e7, e8, e9, e10, e11⟩ := index_facts t
  funext j
  show k2_pay3 (iblk2 V c 0 t) (iblk2 V c 1 t) (iblk2 V c 2 t) j
    = nextFeatures (V c main_v37) (V c main_v14) (V c main_v11) (((cfg2.win 5).blk t).view.emb j)
  refine (features_payload_apply (iblk2 V c 0 t) (iblk2 V c 1 t) (iblk2 V c 2 t) j).trans ?_
  show FloatOps.mulf (FloatOps.mulf (V c main_v37 (((cfg2.win 0).blk t).view.emb j)) (V c main_v14 (((cfg2.win 1).blk t).view.emb (rowIn j))))
      (V c main_v11 (((cfg2.win 2).blk t).view.emb (rowIn j)))
    = FloatOps.mulf (FloatOps.mulf (V c main_v37 (((cfg2.win 5).blk t).view.emb j)) (V c main_v14 (rowOf (((cfg2.win 5).blk t).view.emb j))))
      (V c main_v11 (rowOf (((cfg2.win 5).blk t).view.emb j)))
  have h0 : ((cfg2.win 0).blk t).view.emb j = ((cfg2.win 5).blk t).view.emb j := by
    funext a; apply Fin.ext
    match a with
    | ⟨0, _⟩ => show win2_0.index t (0 : Fin 2) * 6000 + 1 * (j 0).val = win2_5.index t (0 : Fin 2) * 6000 + 1 * (j 0).val; omega
    | ⟨1, _⟩ => show win2_0.index t (1 : Fin 2) * 64 + 1 * (j 1).val = win2_5.index t (1 : Fin 2) * 64 + 1 * (j 1).val; omega
  have h1 : ((cfg2.win 1).blk t).view.emb (rowIn j) = rowOf (((cfg2.win 5).blk t).view.emb j) := by
    funext a; apply Fin.ext
    match a with
    | ⟨0, _⟩ => show win2_1.index t (0 : Fin 2) * 6000 + 1 * (j 0).val = win2_5.index t (0 : Fin 2) * 6000 + 1 * (j 0).val; omega
    | ⟨1, _⟩ => show win2_1.index t (1 : Fin 2) * 1 + 1 * 0 = 0; omega
  have h2 : ((cfg2.win 2).blk t).view.emb (rowIn j) = rowOf (((cfg2.win 5).blk t).view.emb j) := by
    funext a; apply Fin.ext
    match a with
    | ⟨0, _⟩ => show win2_2.index t (0 : Fin 2) * 6000 + 1 * (j 0).val = win2_5.index t (0 : Fin 2) * 6000 + 1 * (j 0).val; omega
    | ⟨1, _⟩ => show win2_2.index t (1 : Fin 2) * 1 + 1 * 0 = 0; omega
  rw [h0, h1, h2]

/-- An index of the table is in point `t`'s block iff each coordinate is in the block's range on its axis. -/
theorem mem_block4 (t : Fin cfg2.N) (i : S150000x64.Idx) :
    i ∈ ((cfg2.win 4).blk t).view.set ↔ ∀ a : Fin 2, win2_4.index t a * S6000x64.size a ≤ (i a).val ∧ (i a).val < win2_4.index t a * S6000x64.size a + S6000x64.size a := by
  show i ∈ ((View.whole main_v38_0).slice (win2_4.rect t)).set ↔ _
  rw [View.set_slice_whole, Rect.mem_set_unit]
  exact Iff.rfl
theorem mem_block5 (t : Fin cfg2.N) (i : S150000x64.Idx) :
    i ∈ ((cfg2.win 5).blk t).view.set ↔ ∀ a : Fin 2, win2_5.index t a * S6000x64.size a ≤ (i a).val ∧ (i a).val < win2_5.index t a * S6000x64.size a + S6000x64.size a := by
  show i ∈ ((View.whole main_v38_1).slice (win2_5.rect t)).set ↔ _
  rw [View.set_slice_whole, Rect.mem_set_unit]
  exact Iff.rfl

/-- The 25 blocks tile the table: row `r` is in the block of point `r / 6000`. -/
theorem covered4 (i : S150000x64.Idx) :
    ∃ t : Fin cfg2.N, (cfg2.win 4).flush t = true ∧ i ∈ ((cfg2.win 4).blk t).view.set := by
  have hi0 : (i 0).val < 150000 := (i 0).isLt
  have hi1 : (i 1).val < 64 := (i 1).isLt
  obtain ⟨t, ht⟩ := index_onto4 ⟨(i 0).val / 6000, by omega⟩
  have q0 : win2_4.index t (0 : Fin 2) = (i 0).val / 6000 := congrFun ht 0
  have q1 : win2_4.index t (1 : Fin 2) = 0 := congrFun ht 1
  refine ⟨t, flush2_4 t, ?_⟩
  rw [mem_block4]
  intro a
  match a with
  | ⟨0, _⟩ => show win2_4.index t (0 : Fin 2) * 6000 ≤ (i 0).val ∧ (i 0).val < win2_4.index t (0 : Fin 2) * 6000 + 6000; omega
  | ⟨1, _⟩ => show win2_4.index t (1 : Fin 2) * 64 ≤ (i 1).val ∧ (i 1).val < win2_4.index t (1 : Fin 2) * 64 + 64; omega
theorem covered5 (i : S150000x64.Idx) :
    ∃ t : Fin cfg2.N, (cfg2.win 5).flush t = true ∧ i ∈ ((cfg2.win 5).blk t).view.set := by
  have hi0 : (i 0).val < 150000 := (i 0).isLt
  have hi1 : (i 1).val < 64 := (i 1).isLt
  obtain ⟨t, ht⟩ := index_onto5 ⟨(i 0).val / 6000, by omega⟩
  have q0 : win2_5.index t (0 : Fin 2) = (i 0).val / 6000 := congrFun ht 0
  have q1 : win2_5.index t (1 : Fin 2) = 0 := congrFun ht 1
  refine ⟨t, flush2_5 t, ?_⟩
  rw [mem_block5]
  intro a
  match a with
  | ⟨0, _⟩ => show win2_5.index t (0 : Fin 2) * 6000 ≤ (i 0).val ∧ (i 0).val < win2_5.index t (0 : Fin 2) * 6000 + 6000; omega
  | ⟨1, _⟩ => show win2_5.index t (1 : Fin 2) * 64 ≤ (i 1).val ∧ (i 1).val < win2_5.index t (1 : Fin 2) * 64 + 64; omega

/-- The residual after the region: the residual it found plus the row-scaled aggregate times the constant. -/
theorem final_residual (c : Dev nD) : (dat2 V c).arrAt 4 cfg2.N
    = residualStep (scale (F := F)) (V c main_v27_0) (V c main_v37) (V c main_v14) :=
  (dat2 V c).arrAt_eq_of_cover 4 _ (fun t _ => flushed4_eq V c t) covered4

/-- The next features after the region: the aggregate scaled by the in-norm and then the out-norm column. -/
theorem final_features (c : Dev nD) : (dat2 V c).arrAt 5 cfg2.N
    = nextFeatures (V c main_v37) (V c main_v14) (V c main_v11) :=
  (dat2 V c).arrAt_eq_of_cover 5 _ (fun t _ => flushed5_eq V c t) covered5

/-- The input arrays are left as the region found them. -/
theorem kept_in_norm (c : Dev nD) : (dat2 V c).arrAt 1 cfg2.N = V c main_v14 :=
  ((dat2 V c).arrAt_in 1 rfl cfg2.N).trans (A_eq2 V c 1)
theorem kept_out_norm (c : Dev nD) : (dat2 V c).arrAt 2 cfg2.N = V c main_v11 :=
  ((dat2 V c).arrAt_in 2 rfl cfg2.N).trans (A_eq2 V c 2)
theorem kept_residual_in (c : Dev nD) : (dat2 V c).arrAt 3 cfg2.N = V c main_v27_0 :=
  ((dat2 V c).arrAt_in 3 rfl cfg2.N).trans (A_eq2 V c 3)

end Cert.KernelIdeal.Postscale2

end
-- ==== Proof.Region3.lean ====
/-
  The third postscale kernel's two output arrays. The grid has 25 points; at point `t` the body reads block `t` (rows
  6000·t … 6000·t + 5999) of the aggregate, of the two norm columns and of the residual; it forms the aggregate block
  times the in-norm column block (broadcast along the 64 lanes), stores the residual block plus that product times a
  constant, and stores that product times the out-norm column block. Every window's index map is `(t, 0)`, so each
  block written back is the restriction of one whole-table function (`Rows.residualStep`, `Rows.nextFeatures`) and the
  25 blocks tile the 150000 rows — whatever the contents `V` the region was entered with.
-/
import proofs.«104496_j40613210751549_1_alg».proof.Proof.Gen.KernelIdeal.Frame
import proofs.«104496_j40613210751549_1_alg».proof.Proof.Rows
import Idealize.ShloMosaic.Lib.Pipeline.Value

set_option maxRecDepth 16384

noncomputable section

namespace Cert.KernelIdeal.Postscale3

open Idealize.ShloMosaic Idealize.ShloMosaic.TcCoe Idealize.ShloMosaic.ValueIdx Idealize.SL.Sem
open Cert.KernelIdeal Cert.KernelIdeal.Gen Cert.Rows
open Idealize.ShloMosaic.Pipeline (Dat)

variable {F : FTy → Type} [FloatOps F]
variable (V : (c : Dev nD) → (b : Ref sig .tc) → Buf (Elt F) ((c : Thread nD τ).loc b))

/-- The column-block entry that belongs to a block index: same row of the block, the only lane. -/
abbrev rowIn (j : S6000x64.Idx) : S6000x1.Idx := ix2 (⟨(j 0).val, (j 0).isLt⟩ : Fin 6000) (0 : Fin 1)

/-- The constant the residual's increment is scaled by. -/
abbrev scale : F .f32 := Scalar.ofBits .f32 0x3E800000#32

/-- The aggregate block times the in-norm column block, entry by entry. -/
theorem scaled_apply (x0 : Vec F S6000x64 .f32) (x1 : Vec F S6000x1 .f32) (p : Fin 6000) (q : Fin 64) :
    k3_pay1 x0 x1 (ix2 p q) = FloatOps.mulf (x0 (ix2 p q)) (x1 (ix2 p (0 : Fin 1))) :=
  blockScale_apply x0 x1 _ _ _ p q

/-- The store into the residual's window, entry by entry. -/
theorem residual_payload_apply (x0 : Vec F S6000x64 .f32) (x1 : Vec F S6000x1 .f32) (x3 : Vec F S6000x64 .f32) (j : S6000x64.Idx) :
    k3_pay2 x0 x1 x3 j = FloatOps.addf (x3 j) (FloatOps.mulf (FloatOps.mulf (x0 j) (x1 (rowIn j))) (scale (F := F))) := by
  obtain ⟨p, q, rfl⟩ : ∃ (p : Fin 6000) (q : Fin 64), j = ix2 p q := ⟨j 0, j 1, eq_ix2 j⟩
  show FloatOps.addf (shapeCast S6000x64 x3 shapeCasts_S6000x64_S6000x64 (ix2 p q)) (FloatOps.mulf (k3_pay1 x0 x1 (ix2 p q)) (scale (F := F))) = _
  rw [shapeCast_self, scaled_apply]

/-- The store into the next features' window, entry by entry. -/
theorem features_payload_apply (x0 : Vec F S6000x64 .f32) (x1 x2 : Vec F S6000x1 .f32) (j : S6000x64.Idx) :
    k3_pay3 x0 x1 x2 j = FloatOps.mulf (FloatOps.mulf (x0 j) (x1 (rowIn j))) (x2 (rowIn j)) := by
  obtain ⟨p, q, rfl⟩ : ∃ (p : Fin 6000) (q : Fin 64), j = ix2 p q := ⟨j 0, j 1, eq_ix2 j⟩
  show FloatOps.mulf (k3_pay1 x0 x1 (ix2 p q)) (broadcastTo S6000x64 (shapeCast S6000x1 x2 shapeCasts_S6000x1_S6000x1) broadcasts_S6000x1_S6000x64 (ix2 p q)) = _
  rw [scaled_apply, shapeCast_self, broadcastTo_a1_ab_apply x2 broadcasts_S6000x1_S6000x64 p q]

/-- The printed index maps over the grid: every window's block at point `t` is block `(t, 0)`. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Every row block is some point's, for both outputs. -/
theorem index_onto4 : ∀ q0 : Fin 25, ∃ t : Fin cfg3.N, win3_4.index t = ![q0.val, 0] :=
  (by decide +kernel : ∀ q0 : Fin 25, ∃ t : Fin grid3.N, win3_4.index t = ![q0.val, 0])
theorem index_onto5 : ∀ q0 : Fin 25, ∃ t : Fin cfg3.N, win3_5.index t = ![q0.val, 0] :=
  (by decide +kernel : ∀ q0 : Fin 25, ∃ t : Fin grid3.N, win3_5.index t = ![q0.val, 0])

/-- What point `t` writes back to the residual is block `t` of `residualStep`. -/
theorem flushed4_eq (c : Dev nD) (t : Fin cfg3.N) :
    (dat3 V c).flushed 4 t = ((cfg3.win 4).blk t).view.read (Elt F)
      (residualStep (scale (F := F)) (V c main_v38_0) (V c main_v48) (V c main_v14)) := by
  show (cfg3.win 4).cut (grid3.coords t) ((dat3 V c).after 4 t) = _
  rw [after3_4]
  unfold out3_4
  rw [View.canon_unit_zero zeroOffset]
  simp only [View.ld_unit_zero (S := S6000x64) zeroOffset, View.ld_unit_zero (S := S6000x1) zeroOffset]
  obtain ⟨e0, e1, e2, e3, e4, e5, e6, e7, e8, e9, e10, e11⟩ := index_facts t
  funext j
  show k3_pay2 (iblk3 V c 0 t) (iblk3 V c 1 t) (iblk3 V c 3 t) j
    = residualStep (scale (F := F)) (V c main_v38_0) (V c main_v48) (V c main_v14) (((cfg3.win 4).blk t).view.emb j)
  refine (residual_payload_apply (iblk3 V c 0 t) (iblk3 V c 1 t) (iblk3 V c 3 t) j).trans ?_
  show FloatOps.addf (V c main_v38_0 (((cfg3.win 3).blk t).view.emb j))
      (FloatOps.mulf (FloatOps.mulf (V c main_v48 (((cfg3.win 0).blk t).view.emb j)) (V c main_v14 (((cfg3.win 1).blk t).view.emb (rowIn j)))) (scale (F := F)))
    = FloatOps.addf (V c main_v38_0 (((cfg3.win 4).blk t).view.emb j))
      (FloatOps.mulf (FloatOps.mulf (V c main_v48 (((cfg3.win 4).blk t).view.emb j)) (V c main_v14 (rowOf (((cfg3.win 4).blk t).view.emb j)))) (scale (F := F)))
  have h0 : ((cfg3.win 0).blk t).view.emb j = ((cfg3.win 4).blk t).view.emb j := by
    funext a; apply Fin.ext
    match a with
    | ⟨0, _⟩ => show win3_0.index t (0 : Fin 2) * 6000 + 1 * (j 0).val = win3_4.index t (0 : Fin 2) * 6000 + 1 * (j 0).val; omega
    | ⟨1, _⟩ => show win3_0.index t (1 : Fin 2) * 64 + 1 * (j 1).val = win3_4.index t (1 : Fin 2) * 64 + 1 * (j 1).val; omega
  have h3 : ((cfg3.win 3).blk t).view.emb j = ((cfg3.win 4).blk t).view.emb j := by
    funext a; apply Fin.ext
    match a with
    | ⟨0, _⟩ => show win3_3.index t (0 : Fin 2) * 6000 + 1 * (j 0).val = win3_4.index t (0 : Fin 2) * 6000 + 1 * (j 0).val; omega
    | ⟨1, _⟩ => show win3_3.index t (1 : Fin 2) * 64 + 1 * (j 1).val = win3_4.index t (1 : Fin 2) * 64 + 1 * (j 1).val; omega
  have h1 : ((cfg3.win 1).blk t).view.emb (rowIn j) = rowOf (((cfg3.win 4).blk t).view.emb j) := by
    funext a; apply Fin.ext
    match a with
    | ⟨0, _⟩ => show win3_1.index t (0 : Fin 2) * 6000 + 1 * (j 0).val = win3_4.index t (0 : Fin 2) * 6000 + 1 * (j 0).val; omega
    | ⟨1, _⟩ => show win3_1.index t (1 : Fin 2) * 1 + 1 * 0 = 0; omega
  rw [h0, h3, h1]

/-- What point `t` writes back to the next features is block `t` of `nextFeatures`. -/
theorem flushed5_eq (c : Dev nD) (t : Fin cfg3.N) :
    (dat3 V c).flushed 5 t = ((cfg3.win 5).blk t).view.read (Elt F)
      (nextFeatures (V c main_v48) (V c main_v14) (V c main_v11)) := by
  show (cfg3.win 5).cut (grid3.coords t) ((dat3 V c).after 5 t) = _
  rw [after3_5]
  unfold out3_5
  rw [View.canon_unit_zero zeroOffset]
  simp only [View.ld_unit_zero (S := S6000x64) zeroOffset, View.ld_unit_zero (S := S6000x1) zeroOffset]
  obtain ⟨e0, e1, e2, e3, e4, e5, e6, e7, e8, e9, e10, e11⟩ := index_facts t
  funext j
  show k3_pay3 (iblk3 V c 0 t) (iblk3 V c 1 t) (iblk3 V c 2 t) j
    = nextFeatures (V c main_v48) (V c main_v14) (V c main_v11) (((cfg3.win 5).blk t).view.emb j)
  refine (features_payload_apply (iblk3 V c 0 t) (iblk3 V c 1 t) (iblk3 V c 2 t) j).trans ?_
  show FloatOps.mulf (FloatOps.mulf (V c main_v48 (((cfg3.win 0).blk t).view.emb j)) (V c main_v14 (((cfg3.win 1).blk t).view.emb (rowIn j))))
      (V c main_v11 (((cfg3.win 2).blk t).view.emb (rowIn j)))
    = FloatOps.mulf (FloatOps.mulf (V c main_v48 (((cfg3.win 5).blk t).view.emb j)) (V c main_v14 (rowOf (((cfg3.win 5).blk t).view.emb j))))
      (V c main_v11 (rowOf (((cfg3.win 5).blk t).view.emb j)))
  have h0 : ((cfg3.win 0).blk t).view.emb j = ((cfg3.win 5).blk t).view.emb j := by
    funext a; apply Fin.ext
    match a with
    | ⟨0, _⟩ => show win3_0.index t (0 : Fin 2) * 6000 + 1 * (j 0).val = win3_5.index t (0 : Fin 2) * 6000 + 1 * (j 0).val; omega
    | ⟨1, _⟩ => show win3_0.index t (1 : Fin 2) * 64 + 1 * (j 1).val = win3_5.index t (1 : Fin 2) * 64 + 1 * (j 1).val; omega
  have h1 : ((cfg3.win 1).blk t).view.emb (rowIn j) = rowOf (((cfg3.win 5).blk t).view.emb j) := by
    funext a; apply Fin.ext
    match a with
    | ⟨0, _⟩ => show win3_1.index t (0 : Fin 2) * 6000 + 1 * (j 0).val = win3_5.index t (0 : Fin 2) * 6000 + 1 * (j 0).val; omega
    | ⟨1, _⟩ => show win3_1.index t (1 : Fin 2) * 1 + 1 * 0 = 0; omega
  have h2 : ((cfg3.win 2).blk t).view.emb (rowIn j) = rowOf (((cfg3.win 5).blk t).view.emb j) := by
    funext a; apply Fin.ext
    match a with
    | ⟨0, _⟩ => show win3_2.index t (0 : Fin 2) * 6000 + 1 * (j 0).val = win3_5.index t (0 : Fin 2) * 6000 + 1 * (j 0).val; omega
    | ⟨1, _⟩ => show win3_2.index t (1 : Fin 2) * 1 + 1 * 0 = 0; omega
  rw [h0, h1, h2]

/-- An index of the table is in point `t`'s block iff each coordinate is in the block's range on its axis. -/
theorem mem_block4 (t : Fin cfg3.N) (i : S150000x64.Idx) :
    i ∈ ((cfg3.win 4).blk t).view.set ↔ ∀ a : Fin 2, win3_4.index t a * S6000x64.size a ≤ (i a).val ∧ (i a).val < win3_4.index t a * S6000x64.size a + S6000x64.size a := by
  show i ∈ ((View.whole main_v49_0).slice (win3_4.rect t)).set ↔ _
  rw [View.set_slice_whole, Rect.mem_set_unit]
  exact Iff.rfl
theorem mem_block5 (t : Fin cfg3.N) (i : S150000x64.Idx) :
    i ∈ ((cfg3.win 5).blk t).view.set ↔ ∀ a : Fin 2, win3_5.index t a * S6000x64.size a ≤ (i a).val ∧ (i a).val < win3_5.index t a * S6000x64.size a + S6000x64.size a := by
  show i ∈ ((View.whole main_v49_1).slice (win3_5.rect t)).set ↔ _
  rw [View.set_slice_whole, Rect.mem_set_unit]
  exact Iff.rfl

/-- The 25 blocks tile the table: row `r` is in the block of point `r / 6000`. -/
theorem covered4 (i : S150000x64.Idx) :
    ∃ t : Fin cfg3.N, (cfg3.win 4).flush t = true ∧ i ∈ ((cfg3.win 4).blk t).view.set := by
  have hi0 : (i 0).val < 150000 := (i 0).isLt
  have hi1 : (i 1).val < 64 := (i 1).isLt
  obtain ⟨t, ht⟩ := index_onto4 ⟨(i 0).val / 6000, by omega⟩
  have q0 : win3_4.index t (0 : Fin 2) = (i 0).val / 6000 := congrFun ht 0
  have q1 : win3_4.index t (1 : Fin 2) = 0 := congrFun ht 1
  refine ⟨t, flush3_4 t, ?_⟩
  rw [mem_block4]
  intro a
  match a with
  | ⟨0, _⟩ => show win3_4.index t (0 : Fin 2) * 6000 ≤ (i 0).val ∧ (i 0).val < win3_4.index t (0 : Fin 2) * 6000 + 6000; omega
  | ⟨1, _⟩ => show win3_4.index t (1 : Fin 2) * 64 ≤ (i 1).val ∧ (i 1).val < win3_4.index t (1 : Fin 2) * 64 + 64; omega
theorem covered5 (i : S150000x64.Idx) :
    ∃ t : Fin cfg3.N, (cfg3.win 5).flush t = true ∧ i ∈ ((cfg3.win 5).blk t).view.set := by
  have hi0 : (i 0).val < 150000 := (i 0).isLt
  have hi1 : (i 1).val < 64 := (i 1).isLt
  obtain ⟨t, ht⟩ := index_onto5 ⟨(i 0).val / 6000, by omega⟩
  have q0 : win3_5.index t (0 : Fin 2) = (i 0).val / 6000 := congrFun ht 0
  have q1 : win3_5.index t (1 : Fin 2) = 0 := congrFun ht 1
  refine ⟨t, flush3_5 t, ?_⟩
  rw [mem_block5]
  intro a
  match a with
  | ⟨0, _⟩ => show win3_5.index t (0 : Fin 2) * 6000 ≤ (i 0).val ∧ (i 0).val < win3_5.index t (0 : Fin 2) * 6000 + 6000; omega
  | ⟨1, _⟩ => show win3_5.index t (1 : Fin 2) * 64 ≤ (i 1).val ∧ (i 1).val < win3_5.index t (1 : Fin 2) * 64 + 64; omega

/-- The residual after the region: the residual it found plus the row-scaled aggregate times the constant. -/
theorem final_residual (c : Dev nD) : (dat3 V c).arrAt 4 cfg3.N
    = residualStep (scale (F := F)) (V c main_v38_0) (V c main_v48) (V c main_v14) :=
  (dat3 V c).arrAt_eq_of_cover 4 _ (fun t _ => flushed4_eq V c t) covered4

/-- The next features after the region: the aggregate scaled by the in-norm and then the out-norm column. -/
theorem final_features (c : Dev nD) : (dat3 V c).arrAt 5 cfg3.N
    = nextFeatures (V c main_v48) (V c main_v14) (V c main_v11) :=
  (dat3 V c).arrAt_eq_of_cover 5 _ (fun t _ => flushed5_eq V c t) covered5

/-- The input arrays are left as the region found them. -/
theorem kept_in_norm (c : Dev nD) : (dat3 V c).arrAt 1 cfg3.N = V c main_v14 :=
  ((dat3 V c).arrAt_in 1 rfl cfg3.N).trans (A_eq3 V c 1)
theorem kept_out_norm (c : Dev nD) : (dat3 V c).arrAt 2 cfg3.N = V c main_v11 :=
  ((dat3 V c).arrAt_in 2 rfl cfg3.N).trans (A_eq3 V c 2)
theorem kept_residual_in (c : Dev nD) : (dat3 V c).arrAt 3 cfg3.N = V c main_v38_0 :=
  ((dat3 V c).arrAt_in 3 rfl cfg3.N).trans (A_eq3 V c 3)

end Cert.KernelIdeal.Postscale3

end
-- ==== Proof.HostSteps.lean ====
/-
  The host stretches of the idealized kernel, each read as a function of the buffer contents it starts from.
  Before the first region the host counts, for every node, the edges leaving it and the edges entering it (a
  scatter-add of ones), clips the counts below at one, raises them to the power −1/2 and lays each result out as a
  column (the out-norm and the in-norm column), and joins the user and the item table into one table of 150000 rows.
  Before each later region it performs one round of message passing (`aggregate`): it gathers, for every edge, the
  source node's row of the current features (a negative source index wrapped by the number of nodes) and adds it into
  the destination node's row of a zero table. After the last region it cuts the residual table back into its user
  rows and its item rows. A stretch leaves every buffer it does not write as it found it.
  The stretches' results are stated against the reference's own operations (the generated stage values `val_main_v…`
  of its read-back), which are the same operations on the same arguments.
-/
import proofs.«104496_j40613210751549_1_alg».proof.Proof.Gen.KernelIdeal.Launch
import proofs.«104496_j40613210751549_1_alg».proof.Proof.Gen.ReferenceIdeal.Read
import Idealize.ShloMosaic.Lib.StableHlo.Run

set_option maxRecDepth 16384

noncomputable section

namespace Cert.KernelIdeal.HostSteps

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (W : Valuation τ sig (Elt F))

/-! ## One round of message passing -/

/-- Gather the rows `src` of the features `h` (a negative index wrapped by the 150000 nodes) and add them into the
    rows `dst` of a zero table. -/
def aggregate (h : FVec F S150000x64 .f32) (src dst : IVec S4000000 32) : FVec F S150000x64 .f32 :=
  Host.scatterAdd scatter_S150000x64_S4000000x1_S4000000x64_1_0_0_1
    (broadcastInDim S150000x64 ![] bcast_S_S150000x64 (constant S_ .f32 0x00000000#32))
    (broadcastInDim S4000000x1 ![0] bcast_S4000000_S4000000x1_0 dst)
    (Host.gather gather_S150000x64_S4000000x1_S4000000x64_1_0_n_n_0_1_164 h
      (broadcastInDim S4000000x1 ![0] bcast_S4000000_S4000000x1_0
        (select (cmpi .slt src (broadcastInDim S4000000 ![] bcast_S_S4000000 (constantI S_ 32 0#32)))
          (addi src (broadcastInDim S4000000 ![] bcast_S_S4000000 (constantI S_ 32 150000#32))) src)))

/-- The reference's three rounds are this function of its features of the round. -/
theorem ref_round1 (x0 : FVec F S100000x64 .f32) (x1 : FVec F S50000x64 .f32) (x2 x3 : IVec S4000000 32) :
    val_main_v27 (F := F) x0 x1 x2 x3 = aggregate (val_main_v17 (F := F) x0 x1 x2) x2 x3 := rfl
theorem ref_round2 (x0 : FVec F S100000x64 .f32) (x1 : FVec F S50000x64 .f32) (x2 x3 : IVec S4000000 32) :
    val_main_v49 (F := F) x0 x1 x2 x3 = aggregate (val_main_v39 (F := F) x0 x1 x2 x3) x2 x3 := rfl
theorem ref_round3 (x0 : FVec F S100000x64 .f32) (x1 : FVec F S50000x64 .f32) (x2 x3 : IVec S4000000 32) :
    val_main_v71 (F := F) x0 x1 x2 x3 = aggregate (val_main_v61 (F := F) x0 x1 x2 x3) x2 x3 := rfl

/-! ## The stretches before the first region -/

/-- The contents after the five stretches that precede the first region. -/
abbrev prepared : Valuation τ sig (Elt F) :=
  StableHlo.after hostOps0_4 (StableHlo.after hostOps0_3 (StableHlo.after hostOps0_2 (StableHlo.after hostOps0_1 (StableHlo.after hostOps0 W))))

/-- The out-norm column is the reference's, of the source indices. -/
theorem prepared_out_norm : prepared W (Proc.devRef .tc main_v11) = val_main_v11 (F := F) (W (Proc.devRef .tc main_arg2)) := by
  after_results_simp <;> rfl
/-- The in-norm column is the reference's, of the destination indices. -/
theorem prepared_in_norm : prepared W (Proc.devRef .tc main_v14) = val_main_v14 (F := F) (W (Proc.devRef .tc main_arg3)) := by
  after_results_simp <;> rfl
/-- The joined table is the reference's. -/
theorem prepared_table : prepared W (Proc.devRef .tc main_v15)
    = val_main_v15 (F := F) (W (Proc.devRef .tc main_arg0)) (W (Proc.devRef .tc main_arg1)) := by
  after_results_simp <;> rfl
theorem prepared_src : prepared W (Proc.devRef .tc main_arg2) = W (Proc.devRef .tc main_arg2) := by
  after_results_simp <;> rfl
theorem prepared_dst : prepared W (Proc.devRef .tc main_arg3) = W (Proc.devRef .tc main_arg3) := by
  after_results_simp <;> rfl

/-! ## The stretch before each postscale region: one round -/

theorem round1_result : StableHlo.after hostOps1 W (Proc.devRef .tc main_v26)
    = aggregate (W (Proc.devRef .tc main_v16)) (W (Proc.devRef .tc main_arg2)) (W (Proc.devRef .tc main_arg3)) := by
  after_results_simp <;> rfl
theorem round2_result : StableHlo.after hostOps2 W (Proc.devRef .tc main_v37)
    = aggregate (W (Proc.devRef .tc main_v27_1)) (W (Proc.devRef .tc main_arg2)) (W (Proc.devRef .tc main_arg3)) := by
  after_results_simp <;> rfl
theorem round3_result : StableHlo.after hostOps3 W (Proc.devRef .tc main_v48)
    = aggregate (W (Proc.devRef .tc main_v38_1)) (W (Proc.devRef .tc main_arg2)) (W (Proc.devRef .tc main_arg3)) := by
  after_results_simp <;> rfl

theorem round1_keeps_main_arg2 : StableHlo.after hostOps1 W (Proc.devRef .tc main_arg2) = W (Proc.devRef .tc main_arg2) :=
  StableHlo.after_of_forall_not_mem _ _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))
theorem round1_keeps_main_arg3 : StableHlo.after hostOps1 W (Proc.devRef .tc main_arg3) = W (Proc.devRef .tc main_arg3) :=
  StableHlo.after_of_forall_not_mem _ _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))
theorem round1_keeps_main_v11 : StableHlo.after hostOps1 W (Proc.devRef .tc main_v11) = W (Proc.devRef .tc main_v11) :=
  StableHlo.after_of_forall_not_mem _ _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))
theorem round1_keeps_main_v14 : StableHlo.after hostOps1 W (Proc.devRef .tc main_v14) = W (Proc.devRef .tc main_v14) :=
  StableHlo.after_of_forall_not_mem _ _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))
theorem round1_keeps_main_v15 : StableHlo.after hostOps1 W (Proc.devRef .tc main_v15) = W (Proc.devRef .tc main_v15) :=
  StableHlo.after_of_forall_not_mem _ _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))
theorem round2_keeps_main_arg2 : StableHlo.after hostOps2 W (Proc.devRef .tc main_arg2) = W (Proc.devRef .tc main_arg2) :=
  StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))
theorem round2_keeps_main_arg3 : StableHlo.after hostOps2 W (Proc.devRef .tc main_arg3) = W (Proc.devRef .tc main_arg3) :=
  StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))
theorem round2_keeps_main_v11 : StableHlo.after hostOps2 W (Proc.devRef .tc main_v11) = W (Proc.devRef .tc main_v11) :=
  StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))
theorem round2_keeps_main_v14 : StableHlo.after hostOps2 W (Proc.devRef .tc main_v14) = W (Proc.devRef .tc main_v14) :=
  StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))
theorem round2_keeps_main_v27_0 : StableHlo.after hostOps2 W (Proc.devRef .tc main_v27_0) = W (Proc.devRef .tc main_v27_0) :=
  StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))
theorem round3_keeps_main_arg2 : StableHlo.after hostOps3 W (Proc.devRef .tc main_arg2) = W (Proc.devRef .tc main_arg2) :=
  StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))
theorem round3_keeps_main_arg3 : StableHlo.after hostOps3 W (Proc.devRef .tc main_arg3) = W (Proc.devRef .tc main_arg3) :=
  StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))
theorem round3_keeps_main_v11 : StableHlo.after hostOps3 W (Proc.devRef .tc main_v11) = W (Proc.devRef .tc main_v11) :=
  StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))
theorem round3_keeps_main_v14 : StableHlo.after hostOps3 W (Proc.devRef .tc main_v14) = W (Proc.devRef .tc main_v14) :=
  StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))
theorem round3_keeps_main_v38_0 : StableHlo.after hostOps3 W (Proc.devRef .tc main_v38_0) = W (Proc.devRef .tc main_v38_0) :=
  StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))

/-! ## The stretch after the last region: the two slices -/

theorem users_result : StableHlo.after hostOps4 W (Proc.devRef .tc main_v50)
    = extractStridedSlice S100000x64 ![0, 0] (W (Proc.devRef .tc main_v49_0)) slices_S150000x64_S100000x64_0_0 := by
  after_results_simp <;> rfl
theorem items_result : StableHlo.after hostOps4 W (Proc.devRef .tc main_v51)
    = extractStridedSlice S50000x64 ![100000, 0] (W (Proc.devRef .tc main_v49_0)) slices_S150000x64_S50000x64_100000_0 := by
  after_results_simp <;> rfl

end Cert.KernelIdeal.HostSteps

end
-- ==== Proof.Halves.lean ====
/-
  The reference keeps the residuals of the user rows and of the item rows apart; the kernel keeps one table of 150000
  rows and cuts it at the end. The two agree because cutting commutes with everything done to the residuals: the first
  100000 rows of the joined table are the user table and the rest the item table; a slice of a sum or of a product is
  the sum or the product of the slices; and a slice of a constant table is the constant table of the slice's shape.
  So the slices of "joined table + Σ (round's scaled aggregate) × constant" are the reference's two results.
  The rounds' scaled aggregates are the reference's own stage values (`val_main_v29`, `val_main_v51`, `val_main_v73`).
-/
import proofs.«104496_j40613210751549_1_alg».proof.Proof.Gen.ReferenceIdeal.Read
import proofs.«104496_j40613210751549_1_alg».proof.Proof.Rows
import Idealize.ShloMosaic.Lib.LayoutPointwise

set_option maxRecDepth 16384

noncomputable section

namespace Cert.ReferenceIdeal.Halves

open Idealize.ShloMosaic Idealize.ShloMosaic.TcCoe
open Cert.ReferenceIdeal Cert.ReferenceIdeal.Gen Cert.ReferenceIdeal.Read Cert.Rows

variable {F : FTy → Type} [FloatOps F]
variable (x0 : FVec F S100000x64 .f32) (x1 : FVec F S50000x64 .f32) (x2 x3 : IVec S4000000 32)

/-- The first 100000 rows of the joined table are the user table. -/
theorem users_of_table :
    extractStridedSlice S100000x64 ![0, 0] (val_main_v15 (F := F) x0 x1) slices_S150000x64_S100000x64_0_0 = x0 := by
  funext i
  refine (extractStridedSlice_apply ![0, 0] _ slices_S150000x64_S100000x64_0_0 i (idx_main_v30 i) (fun a => match a with
    | ⟨0, _⟩ => by show (i 0).val = 0 + (i 0).val; omega
    | ⟨1, _⟩ => by show (i 1).val = 0 + (i 1).val; omega)).trans ?_
  exact concatenate_pair_apply_left (0 : Fin S150000x64.rank) x0 x1 concatenates_S100000x64_S50000x64_S150000x64_d0
    (idx_main_v30 i) rfl i (fun b => match b with | ⟨0, _⟩ => rfl | ⟨1, _⟩ => rfl)

/-- The last 50000 rows of the joined table are the item table. -/
theorem items_of_table :
    extractStridedSlice S50000x64 ![100000, 0] (val_main_v15 (F := F) x0 x1) slices_S150000x64_S50000x64_100000_0 = x1 := by
  funext i
  refine (extractStridedSlice_apply ![100000, 0] _ slices_S150000x64_S50000x64_100000_0 i (idx_main_v34 i) (fun a => match a with
    | ⟨0, _⟩ => by show 100000 + (i 0).val = 100000 + (i 0).val; omega
    | ⟨1, _⟩ => by show (i 1).val = 0 + (i 1).val; omega)).trans ?_
  exact concatenate_pair_apply_right (0 : Fin S150000x64.rank) x0 x1 concatenates_S100000x64_S50000x64_S150000x64_d0
    (idx_main_v34 i) rfl rfl i
    (fun b hb => match b, hb with | ⟨0, _⟩, hb => absurd rfl hb | ⟨1, _⟩, _ => rfl)
    (by show (i 0).val + 100000 = 100000 + (i 0).val; omega)

/-- A constant laid over the whole table. -/
abbrev splat (w : BitVec 32) : FVec F S150000x64 .f32 :=
  broadcastInDim S150000x64 ![] bcast_S_S150000x64 (constant S_ .f32 w)

/-- The table of residuals after the three rounds: the joined table plus each round's scaled aggregate times its
    constant (1/2, the float nearest 1/3, 1/4), added in the order of the rounds. -/
def residuals : FVec F S150000x64 .f32 :=
  addf (addf (addf (val_main_v15 (F := F) x0 x1) (mulf (val_main_v29 (F := F) x0 x1 x2 x3) (splat 0x3F000000#32)))
    (mulf (val_main_v51 (F := F) x0 x1 x2 x3) (splat 0x3EAAAAAB#32))) (mulf (val_main_v73 (F := F) x0 x1 x2 x3) (splat 0x3E800000#32))

/-- Three residual steps from the joined table, each round's aggregate scaled by the in-norm column, are that table. -/
theorem residualSteps_eq :
    residualStep (Scalar.ofBits (F := F) .f32 0x3E800000#32)
      (residualStep (Scalar.ofBits (F := F) .f32 0x3EAAAAAB#32)
        (residualStep (Scalar.ofBits (F := F) .f32 0x3F000000#32) (val_main_v15 (F := F) x0 x1) (val_main_v27 (F := F) x0 x1 x2 x3) (val_main_v14 (F := F) x3))
        (val_main_v49 (F := F) x0 x1 x2 x3) (val_main_v14 (F := F) x3))
      (val_main_v71 (F := F) x0 x1 x2 x3) (val_main_v14 (F := F) x3)
    = residuals x0 x1 x2 x3 := by
  rw [← addf_mulf_column 0x3F000000#32 _ _ _ bcast_S150000x1_S150000x64_0_1 S_ ![] bcast_S_S150000x64,
    ← addf_mulf_column 0x3EAAAAAB#32 _ _ _ bcast_S150000x1_S150000x64_0_1 S_ ![] bcast_S_S150000x64,
    ← addf_mulf_column 0x3E800000#32 _ _ _ bcast_S150000x1_S150000x64_0_1 S_ ![] bcast_S_S150000x64]
  rfl

/-- The user rows of the residual table are the reference's first result. -/
theorem users_eq :
    extractStridedSlice S100000x64 ![0, 0] (residuals (F := F) x0 x1 x2 x3) slices_S150000x64_S100000x64_0_0
      = val_main_v77 (F := F) x0 x1 x2 x3 := by
  have h := users_of_table (F := F) x0 x1
  calc extractStridedSlice S100000x64 ![0, 0] (residuals (F := F) x0 x1 x2 x3) slices_S150000x64_S100000x64_0_0
      = addf (addf (addf (extractStridedSlice S100000x64 ![0, 0] (val_main_v15 (F := F) x0 x1) slices_S150000x64_S100000x64_0_0)
          (val_main_v32 (F := F) x0 x1 x2 x3)) (val_main_v54 (F := F) x0 x1 x2 x3)) (val_main_v76 (F := F) x0 x1 x2 x3) := rfl
    _ = val_main_v77 (F := F) x0 x1 x2 x3 := by rw [h]; rfl

/-- The item rows of the residual table are the reference's second result. -/
theorem items_eq :
    extractStridedSlice S50000x64 ![100000, 0] (residuals (F := F) x0 x1 x2 x3) slices_S150000x64_S50000x64_100000_0
      = val_main_v81 (F := F) x0 x1 x2 x3 := by
  have h := items_of_table (F := F) x0 x1
  calc extractStridedSlice S50000x64 ![100000, 0] (residuals (F := F) x0 x1 x2 x3) slices_S150000x64_S50000x64_100000_0
      = addf (addf (addf (extractStridedSlice S50000x64 ![100000, 0] (val_main_v15 (F := F) x0 x1) slices_S150000x64_S50000x64_100000_0)
          (val_main_v36 (F := F) x0 x1 x2 x3)) (val_main_v58 (F := F) x0 x1 x2 x3)) (val_main_v80 (F := F) x0 x1 x2 x3) := rfl
    _ = val_main_v81 (F := F) x0 x1 x2 x3 := by rw [h]; rfl

end Cert.ReferenceIdeal.Halves

end
-- ==== Proof.Fold.lean ====
/-
  The idealized kernel's buffer contents, boundary by boundary, as functions of the four arguments. The generated
  frame names the contents at each of the thirteen segment boundaries (`Gen.W0` … `Gen.W13`): a host stretch's are
  `StableHlo.after` of the stretch, a region's are its arrays at what the pipeline leaves. Walking the fold forward:
  the prepared norm columns and joined table are the reference's; the prescale region leaves the table row-scaled by
  the out-norm column, which is the reference's first features; each host round then aggregates those features as the
  reference does, and each postscale region leaves (a) the residual plus the aggregate row-scaled by the in-norm
  column times the round's constant, and (b) that row-scaled aggregate scaled again by the out-norm column — the
  reference's next features. After the third round the residual table is the joined table plus the three increments,
  and its two slices are the reference's two results (`Halves.users_eq`, `Halves.items_eq`).
-/
import proofs.«104496_j40613210751549_1_alg».proof.Proof.Gen.KernelIdeal.Frame
import proofs.«104496_j40613210751549_1_alg».proof.Proof.Region0
import proofs.«104496_j40613210751549_1_alg».proof.Proof.Region1
import proofs.«104496_j40613210751549_1_alg».proof.Proof.Region2
import proofs.«104496_j40613210751549_1_alg».proof.Proof.Region3
import proofs.«104496_j40613210751549_1_alg».proof.Proof.HostSteps
import proofs.«104496_j40613210751549_1_alg».proof.Proof.Halves

set_option maxRecDepth 16384

noncomputable section

namespace Cert.KernelIdeal.Fold

open Idealize.ShloMosaic Idealize.ShloMosaic.TcCoe Idealize.SL.Sem
open Cert.KernelIdeal Cert.KernelIdeal.Gen Cert.KernelIdeal.HostSteps Cert.Rows
open Cert.ReferenceIdeal.Read

variable {F : FTy → Type} [FloatOps F]
variable (m : (ℓ : Loc nD τ sig) → Buf (Elt F) ℓ) (ρ : Dev nD → PrngReg) (c : Dev nD)

/-! ## Entering the prescale region -/

theorem at5_src : W5 m ρ c (Proc.devRef .tc main_arg2) = m ((c : Thread nD τ).loc main_arg2) := prepared_src (W0 m ρ c)
theorem at5_dst : W5 m ρ c (Proc.devRef .tc main_arg3) = m ((c : Thread nD τ).loc main_arg3) := prepared_dst (W0 m ρ c)
theorem at5_out_norm : W5 m ρ c (Proc.devRef .tc main_v11) = val_main_v11 (F := F) (m ((c : Thread nD τ).loc main_arg2)) := prepared_out_norm (W0 m ρ c)
theorem at5_in_norm : W5 m ρ c (Proc.devRef .tc main_v14) = val_main_v14 (F := F) (m ((c : Thread nD τ).loc main_arg3)) := prepared_in_norm (W0 m ρ c)
theorem at5_table : W5 m ρ c (Proc.devRef .tc main_v15) = val_main_v15 (F := F) (m ((c : Thread nD τ).loc main_arg0)) (m ((c : Thread nD τ).loc main_arg1)) := prepared_table (W0 m ρ c)

/-! ## Leaving the prescale region -/

theorem at6_src : W6 m ρ c (Proc.devRef .tc main_arg2) = m ((c : Thread nD τ).loc main_arg2) := (W6_of_ne m ρ c main_arg2 (by decide)).trans (at5_src m ρ c)
theorem at6_dst : W6 m ρ c (Proc.devRef .tc main_arg3) = m ((c : Thread nD τ).loc main_arg3) := (W6_of_ne m ρ c main_arg3 (by decide)).trans (at5_dst m ρ c)
theorem at6_in_norm : W6 m ρ c (Proc.devRef .tc main_v14) = val_main_v14 (F := F) (m ((c : Thread nD τ).loc main_arg3)) :=
  (W6_of_ne m ρ c main_v14 (by decide)).trans (at5_in_norm m ρ c)
theorem at6_out_norm : W6 m ρ c (Proc.devRef .tc main_v11) = val_main_v11 (F := F) (m ((c : Thread nD τ).loc main_arg2)) :=
  (W6_arr m ρ c 1).trans ((Prescale.kept_column (V5 m ρ) c).trans (at5_out_norm m ρ c))
theorem at6_table : W6 m ρ c (Proc.devRef .tc main_v15) = val_main_v15 (F := F) (m ((c : Thread nD τ).loc main_arg0)) (m ((c : Thread nD τ).loc main_arg1)) :=
  (W6_arr m ρ c 0).trans ((Prescale.kept_table (V5 m ρ) c).trans (at5_table m ρ c))
/-- The prescaled table is the reference's first features. -/
theorem at6_features : W6 m ρ c (Proc.devRef .tc main_v16) = val_main_v17 (F := F) (m ((c : Thread nD τ).loc main_arg0)) (m ((c : Thread nD τ).loc main_arg1)) (m ((c : Thread nD τ).loc main_arg2)) := by
  refine (W6_arr m ρ c 2).trans ((Prescale.final (V5 m ρ) c).trans ?_)
  show rowScale (W5 m ρ c (Proc.devRef .tc main_v15)) (W5 m ρ c (Proc.devRef .tc main_v11)) = _
  rw [at5_table, at5_out_norm]
  exact (mulf_column _ _ _).symm

/-! ## The first round and the first postscale region -/

theorem at7_src : W7 m ρ c (Proc.devRef .tc main_arg2) = m ((c : Thread nD τ).loc main_arg2) := (round1_keeps_main_arg2 (W6 m ρ c)).trans (at6_src m ρ c)
theorem at7_dst : W7 m ρ c (Proc.devRef .tc main_arg3) = m ((c : Thread nD τ).loc main_arg3) := (round1_keeps_main_arg3 (W6 m ρ c)).trans (at6_dst m ρ c)
theorem at7_in_norm : W7 m ρ c (Proc.devRef .tc main_v14) = val_main_v14 (F := F) (m ((c : Thread nD τ).loc main_arg3)) := (round1_keeps_main_v14 (W6 m ρ c)).trans (at6_in_norm m ρ c)
theorem at7_out_norm : W7 m ρ c (Proc.devRef .tc main_v11) = val_main_v11 (F := F) (m ((c : Thread nD τ).loc main_arg2)) := (round1_keeps_main_v11 (W6 m ρ c)).trans (at6_out_norm m ρ c)
theorem at7_table : W7 m ρ c (Proc.devRef .tc main_v15) = val_main_v15 (F := F) (m ((c : Thread nD τ).loc main_arg0)) (m ((c : Thread nD τ).loc main_arg1)) := (round1_keeps_main_v15 (W6 m ρ c)).trans (at6_table m ρ c)
theorem at7_aggregate : W7 m ρ c (Proc.devRef .tc main_v26) = val_main_v27 (F := F) (m ((c : Thread nD τ).loc main_arg0)) (m ((c : Thread nD τ).loc main_arg1)) (m ((c : Thread nD τ).loc main_arg2)) (m ((c : Thread nD τ).loc main_arg3)) := by
  refine (round1_result (W6 m ρ c)).trans ?_
  rw [at6_features, at6_src, at6_dst]
  exact (ref_round1 _ _ _ _).symm

theorem at8_src : W8 m ρ c (Proc.devRef .tc main_arg2) = m ((c : Thread nD τ).loc main_arg2) := (W8_of_ne m ρ c main_arg2 (by decide)).trans (at7_src m ρ c)
theorem at8_dst : W8 m ρ c (Proc.devRef .tc main_arg3) = m ((c : Thread nD τ).loc main_arg3) := (W8_of_ne m ρ c main_arg3 (by decide)).trans (at7_dst m ρ c)
theorem at8_in_norm : W8 m ρ c (Proc.devRef .tc main_v14) = val_main_v14 (F := F) (m ((c : Thread nD τ).loc main_arg3)) :=
  (W8_arr m ρ c 1).trans ((Postscale1.kept_in_norm (V7 m ρ) c).trans (at7_in_norm m ρ c))
theorem at8_out_norm : W8 m ρ c (Proc.devRef .tc main_v11) = val_main_v11 (F := F) (m ((c : Thread nD τ).loc main_arg2)) :=
  (W8_arr m ρ c 2).trans ((Postscale1.kept_out_norm (V7 m ρ) c).trans (at7_out_norm m ρ c))
theorem at8_residual : W8 m ρ c (Proc.devRef .tc main_v27_0)
    = residualStep (Scalar.ofBits (F := F) .f32 0x3F000000#32) (val_main_v15 (F := F) (m ((c : Thread nD τ).loc main_arg0)) (m ((c : Thread nD τ).loc main_arg1))) (val_main_v27 (F := F) (m ((c : Thread nD τ).loc main_arg0)) (m ((c : Thread nD τ).loc main_arg1)) (m ((c : Thread nD τ).loc main_arg2)) (m ((c : Thread nD τ).loc main_arg3))) (val_main_v14 (F := F) (m ((c : Thread nD τ).loc main_arg3))) := by
  refine (W8_arr m ρ c 4).trans ((Postscale1.final_residual (V7 m ρ) c).trans ?_)
  show residualStep _ (W7 m ρ c (Proc.devRef .tc main_v15)) (W7 m ρ c (Proc.devRef .tc main_v26)) (W7 m ρ c (Proc.devRef .tc main_v14)) = _
  rw [at7_table, at7_aggregate, at7_in_norm]
theorem at8_features : W8 m ρ c (Proc.devRef .tc main_v27_1) = val_main_v39 (F := F) (m ((c : Thread nD τ).loc main_arg0)) (m ((c : Thread nD τ).loc main_arg1)) (m ((c : Thread nD τ).loc main_arg2)) (m ((c : Thread nD τ).loc main_arg3)) := by
  refine (W8_arr m ρ c 5).trans ((Postscale1.final_features (V7 m ρ) c).trans ?_)
  show nextFeatures (W7 m ρ c (Proc.devRef .tc main_v26)) (W7 m ρ c (Proc.devRef .tc main_v14)) (W7 m ρ c (Proc.devRef .tc main_v11)) = _
  rw [at7_aggregate, at7_in_norm, at7_out_norm]
  exact (mulf_mulf_column _ _ _ _ _).symm

/-! ## The second round and the second postscale region -/

theorem at9_src : W9 m ρ c (Proc.devRef .tc main_arg2) = m ((c : Thread nD τ).loc main_arg2) := (round2_keeps_main_arg2 (W8 m ρ c)).trans (at8_src m ρ c)
theorem at9_dst : W9 m ρ c (Proc.devRef .tc main_arg3) = m ((c : Thread nD τ).loc main_arg3) := (round2_keeps_main_arg3 (W8 m ρ c)).trans (at8_dst m ρ c)
theorem at9_in_norm : W9 m ρ c (Proc.devRef .tc main_v14) = val_main_v14 (F := F) (m ((c : Thread nD τ).loc main_arg3)) := (round2_keeps_main_v14 (W8 m ρ c)).trans (at8_in_norm m ρ c)
theorem at9_out_norm : W9 m ρ c (Proc.devRef .tc main_v11) = val_main_v11 (F := F) (m ((c : Thread nD τ).loc main_arg2)) := (round2_keeps_main_v11 (W8 m ρ c)).trans (at8_out_norm m ρ c)
theorem at9_residual : W9 m ρ c (Proc.devRef .tc main_v27_0)
    = residualStep (Scalar.ofBits (F := F) .f32 0x3F000000#32) (val_main_v15 (F := F) (m ((c : Thread nD τ).loc main_arg0)) (m ((c : Thread nD τ).loc main_arg1))) (val_main_v27 (F := F) (m ((c : Thread nD τ).loc main_arg0)) (m ((c : Thread nD τ).loc main_arg1)) (m ((c : Thread nD τ).loc main_arg2)) (m ((c : Thread nD τ).loc main_arg3))) (val_main_v14 (F := F) (m ((c : Thread nD τ).loc main_arg3))) :=
  (round2_keeps_main_v27_0 (W8 m ρ c)).trans (at8_residual m ρ c)
theorem at9_aggregate : W9 m ρ c (Proc.devRef .tc main_v37) = val_main_v49 (F := F) (m ((c : Thread nD τ).loc main_arg0)) (m ((c : Thread nD τ).loc main_arg1)) (m ((c : Thread nD τ).loc main_arg2)) (m ((c : Thread nD τ).loc main_arg3)) := by
  refine (round2_result (W8 m ρ c)).trans ?_
  rw [at8_features, at8_src, at8_dst]
  exact (ref_round2 _ _ _ _).symm

theorem at10_src : W10 m ρ c (Proc.devRef .tc main_arg2) = m ((c : Thread nD τ).loc main_arg2) := (W10_of_ne m ρ c main_arg2 (by decide)).trans (at9_src m ρ c)
theorem at10_dst : W10 m ρ c (Proc.devRef .tc main_arg3) = m ((c : Thread nD τ).loc main_arg3) := (W10_of_ne m ρ c main_arg3 (by decide)).trans (at9_dst m ρ c)
theorem at10_in_norm : W10 m ρ c (Proc.devRef .tc main_v14) = val_main_v14 (F := F) (m ((c : Thread nD τ).loc main_arg3)) :=
  (W10_arr m ρ c 1).trans ((Postscale2.kept_in_norm (V9 m ρ) c).trans (at9_in_norm m ρ c))
theorem at10_out_norm : W10 m ρ c (Proc.devRef .tc main_v11) = val_main_v11 (F := F) (m ((c : Thread nD τ).loc main_arg2)) :=
  (W10_arr m ρ c 2).trans ((Postscale2.kept_out_norm (V9 m ρ) c).trans (at9_out_norm m ρ c))
theorem at10_residual : W10 m ρ c (Proc.devRef .tc main_v38_0)
    = residualStep (Scalar.ofBits (F := F) .f32 0x3EAAAAAB#32)
        (residualStep (Scalar.ofBits (F := F) .f32 0x3F000000#32) (val_main_v15 (F := F) (m ((c : Thread nD τ).loc main_arg0)) (m ((c : Thread nD τ).loc main_arg1))) (val_main_v27 (F := F) (m ((c : Thread nD τ).loc main_arg0)) (m ((c : Thread nD τ).loc main_arg1)) (m ((c : Thread nD τ).loc main_arg2)) (m ((c : Thread nD τ).loc main_arg3))) (val_main_v14 (F := F) (m ((c : Thread nD τ).loc main_arg3))))
        (val_main_v49 (F := F) (m ((c : Thread nD τ).loc main_arg0)) (m ((c : Thread nD τ).loc main_arg1)) (m ((c : Thread nD τ).loc main_arg2)) (m ((c : Thread nD τ).loc main_arg3))) (val_main_v14 (F := F) (m ((c : Thread nD τ).loc main_arg3))) := by
  refine (W10_arr m ρ c 4).trans ((Postscale2.final_residual (V9 m ρ) c).trans ?_)
  show residualStep _ (W9 m ρ c (Proc.devRef .tc main_v27_0)) (W9 m ρ c (Proc.devRef .tc main_v37)) (W9 m ρ c (Proc.devRef .tc main_v14)) = _
  rw [at9_residual, at9_aggregate, at9_in_norm]
theorem at10_features : W10 m ρ c (Proc.devRef .tc main_v38_1) = val_main_v61 (F := F) (m ((c : Thread nD τ).loc main_arg0)) (m ((c : Thread nD τ).loc main_arg1)) (m ((c : Thread nD τ).loc main_arg2)) (m ((c : Thread nD τ).loc main_arg3)) := by
  refine (W10_arr m ρ c 5).trans ((Postscale2.final_features (V9 m ρ) c).trans ?_)
  show nextFeatures (W9 m ρ c (Proc.devRef .tc main_v37)) (W9 m ρ c (Proc.devRef .tc main_v14)) (W9 m ρ c (Proc.devRef .tc main_v11)) = _
  rw [at9_aggregate, at9_in_norm, at9_out_norm]
  exact (mulf_mulf_column _ _ _ _ _).symm

/-! ## The third round and the third postscale region -/

theorem at11_src : W11 m ρ c (Proc.devRef .tc main_arg2) = m ((c : Thread nD τ).loc main_arg2) := (round3_keeps_main_arg2 (W10 m ρ c)).trans (at10_src m ρ c)
theorem at11_dst : W11 m ρ c (Proc.devRef .tc main_arg3) = m ((c : Thread nD τ).loc main_arg3) := (round3_keeps_main_arg3 (W10 m ρ c)).trans (at10_dst m ρ c)
theorem at11_in_norm : W11 m ρ c (Proc.devRef .tc main_v14) = val_main_v14 (F := F) (m ((c : Thread nD τ).loc main_arg3)) := (round3_keeps_main_v14 (W10 m ρ c)).trans (at10_in_norm m ρ c)
theorem at11_residual : W11 m ρ c (Proc.devRef .tc main_v38_0)
    = residualStep (Scalar.ofBits (F := F) .f32 0x3EAAAAAB#32)
        (residualStep (Scalar.ofBits (F := F) .f32 0x3F000000#32) (val_main_v15 (F := F) (m ((c : Thread nD τ).loc main_arg0)) (m ((c : Thread nD τ).loc main_arg1))) (val_main_v27 (F := F) (m ((c : Thread nD τ).loc main_arg0)) (m ((c : Thread nD τ).loc main_arg1)) (m ((c : Thread nD τ).loc main_arg2)) (m ((c : Thread nD τ).loc main_arg3))) (val_main_v14 (F := F) (m ((c : Thread nD τ).loc main_arg3))))
        (val_main_v49 (F := F) (m ((c : Thread nD τ).loc main_arg0)) (m ((c : Thread nD τ).loc main_arg1)) (m ((c : Thread nD τ).loc main_arg2)) (m ((c : Thread nD τ).loc main_arg3))) (val_main_v14 (F := F) (m ((c : Thread nD τ).loc main_arg3))) :=
  (round3_keeps_main_v38_0 (W10 m ρ c)).trans (at10_residual m ρ c)
theorem at11_aggregate : W11 m ρ c (Proc.devRef .tc main_v48) = val_main_v71 (F := F) (m ((c : Thread nD τ).loc main_arg0)) (m ((c : Thread nD τ).loc main_arg1)) (m ((c : Thread nD τ).loc main_arg2)) (m ((c : Thread nD τ).loc main_arg3)) := by
  refine (round3_result (W10 m ρ c)).trans ?_
  rw [at10_features, at10_src, at10_dst]
  exact (ref_round3 _ _ _ _).symm

/-- After the third postscale region the residual table is the joined table plus the three rounds' increments. -/
theorem at12_residual : W12 m ρ c (Proc.devRef .tc main_v49_0) = Cert.ReferenceIdeal.Halves.residuals (F := F) (m ((c : Thread nD τ).loc main_arg0)) (m ((c : Thread nD τ).loc main_arg1)) (m ((c : Thread nD τ).loc main_arg2)) (m ((c : Thread nD τ).loc main_arg3)) := by
  refine (W12_arr m ρ c 4).trans ((Postscale3.final_residual (V11 m ρ) c).trans ?_)
  show residualStep _ (W11 m ρ c (Proc.devRef .tc main_v38_0)) (W11 m ρ c (Proc.devRef .tc main_v48)) (W11 m ρ c (Proc.devRef .tc main_v14)) = _
  rw [at11_residual, at11_aggregate, at11_in_norm]
  exact Cert.ReferenceIdeal.Halves.residualSteps_eq _ _ _ _

/-! ## The return: the two slices are the reference's results -/

theorem at13_users : W13 m ρ c (Proc.devRef .tc main_v50) = val_main_v77 (F := F) (m ((c : Thread nD τ).loc main_arg0)) (m ((c : Thread nD τ).loc main_arg1)) (m ((c : Thread nD τ).loc main_arg2)) (m ((c : Thread nD τ).loc main_arg3)) := by
  refine (users_result (W12 m ρ c)).trans ?_
  rw [at12_residual]
  exact Cert.ReferenceIdeal.Halves.users_eq _ _ _ _
theorem at13_items : W13 m ρ c (Proc.devRef .tc main_v51) = val_main_v81 (F := F) (m ((c : Thread nD τ).loc main_arg0)) (m ((c : Thread nD τ).loc main_arg1)) (m ((c : Thread nD τ).loc main_arg2)) (m ((c : Thread nD τ).loc main_arg3)) := by
  refine (items_result (W12 m ρ c)).trans ?_
  rw [at12_residual]
  exact Cert.ReferenceIdeal.Halves.items_eq _ _ _ _

end Cert.KernelIdeal.Fold

end
-- ==== Proof.lean ====
/-
  LightGCN message passing: three rounds of degree-normalized aggregation over a bipartite user–item graph, the
  results averaged into a residual with weights 1/2, 1/3 (its nearest float), 1/4.

  Both programs compute, from the user and item tables and the edge lists `src`, `dst`:
    out_norm = max(#edges leaving a node, 1)^(−1/2),  in_norm = max(#edges entering a node, 1)^(−1/2)  (as columns),
    h₀ = table · out_norm (row by row),
    eₖ = (Σ over edges into a node of hₖ[source]) · in_norm,   hₖ₊₁ = eₖ · out_norm,
    result = table + e₀·½ + e₁·⅓ + e₂·¼   (added in this order).
  The reference does every step on the host, on whole tables, and keeps the user rows and the item rows of the result
  apart. The kernel does the row scalings in four pallas_calls over 25 blocks of 6000 rows each (a prescale and three
  postscales that also update one residual table of all 150000 rows), the edge gathers and scatter-adds on the host
  between them, and cuts the residual table into user and item rows at the end. At the ideal instance the two are the
  same function of the arguments with no algebraic law needed: the same operations in the same order, the kernel's by
  blocks that tile the table (Region0 … Region3), the host's in between read stretch by stretch (HostSteps), the
  contents followed from boundary to boundary (Fold), and the final cut commuting with the sums (Halves). The
  precondition (finite float inputs) is not used by the value claim.

  The three frames are the generated ones; the idealization rewrote no operation, so `preserves` is trivial.
-/
import proofs.«104496_j40613210751549_1_alg».proof.Defs
import proofs.«104496_j40613210751549_1_alg».proof.Proof.Gen.Kernel
import proofs.«104496_j40613210751549_1_alg».proof.Proof.Gen.Kernel.Frame
import proofs.«104496_j40613210751549_1_alg».proof.Proof.Gen.KernelIdeal
import proofs.«104496_j40613210751549_1_alg».proof.Proof.Gen.KernelIdeal.Frame
import proofs.«104496_j40613210751549_1_alg».proof.Proof.Gen.ReferenceIdeal
import proofs.«104496_j40613210751549_1_alg».proof.Proof.Gen.Pre_finite_inputs
import proofs.«104496_j40613210751549_1_alg».proof.Proof.Gen.ReferenceIdeal.Run
import proofs.«104496_j40613210751549_1_alg».proof.Proof.Gen.ReferenceIdeal.Read
import proofs.«104496_j40613210751549_1_alg».proof.Proof.KRun
import proofs.«104496_j40613210751549_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its read-back run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end, on agreeing arguments, with the reference's two stage values `val_main_v77` (user rows) and
    `val_main_v81` (item rows) of the arguments: the kernel by the fold of its boundary contents, the reference by
    its read-back run. -/
theorem algebraic : Cert.algebraic_KernelIdeal_ReferenceIdeal := by
  intro m ρ m' ρ' _ hagree
  refine ⟨fun c => Cert.ReferenceIdeal.Read.val_main_v77 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.ReferenceIdeal.Read.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Fold.at13_users m ρ c),
        (h c).2.1.trans (Cert.KernelIdeal.Fold.at13_items m ρ c), (h c).2.2⟩)
      (Cert.KernelIdeal.Results.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v77_eq, (hagree c).1, (hagree c).2.1, (hagree c).2.2.1, (hagree c).2.2.2]
    · rw [Cert.ReferenceIdeal.Read.val_main_v81_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
